-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x96x256x4 : Shape := ⟨4, ![16, 96, 256, 4]⟩
abbrev S16x256x96x256 : Shape := ⟨4, ![16, 256, 96, 256]⟩
abbrev S_ : Shape := ⟨0, ![]⟩
abbrev S16x96x256 : Shape := ⟨3, ![16, 96, 256]⟩

class Facts : Prop where
  bcast_S_S16x96x256x4 : S_.BroadcastsInDim S16x96x256x4 (![] : Fin 0 → Fin S16x96x256x4.rank)
  reducesTo_S16x96x256x4_S_d0_1_2_3 : S16x96x256x4.ReducesTo [0, 1, 2, 3] S_
  h_S_ : 0 < S_.numel
  bcast_S_S16x256x96x256 : S_.BroadcastsInDim S16x256x96x256 (![] : Fin 0 → Fin S16x256x96x256.rank)
  reducesTo_S16x256x96x256_S_d0_1_2_3 : S16x256x96x256.ReducesTo [0, 1, 2, 3] S_
  reducesTo_S16x96x256x4_S16x96x256_d3 : S16x96x256x4.ReducesTo [3] S16x96x256
  bcast_S_S16x96x256 : S_.BroadcastsInDim S16x96x256 (![] : Fin 0 → Fin S16x96x256.rank)
  reducesTo_S16x96x256_S_d0_1_2 : S16x96x256.ReducesTo [0, 1, 2] S_

variable [Facts]

def fn_part1 {F : FTy → Type} [FloatOps F] (main_arg2 : FVec F S16x96x256x4 .f32) (main_v13 : IVec S_ 1) (main_v15 : FVec F S16x96x256 .f32) (main_cst_5 : FVec F S_ .f32) : IVec S_ 1 :=
  let main_v16 : FVec F S16x96x256 .f32 := broadcastInDim S16x96x256 ![] bcast_S_S16x96x256 main_cst_5
  let main_v17 : IVec S16x96x256 1 := cmpf .ogt main_v15 main_v16
  let main_c_6 : IVec S_ 1 := constantI S_ 1 1#1
  let main_v18 : IVec S_ 1 := (fun x v => Host.reduce IntOp.andi x v reducesTo_S16x96x256_S_d0_1_2 h_S_) main_v17 main_c_6
  let main_v19 : IVec S_ 1 := andi main_v13 main_v18
  let main_v20 : FVec F S16x96x256x4 .f32 := mulf main_arg2 main_arg2
  let main_cst_7 : FVec F S_ .f32 := constant S_ .f32 0x00000000#32
  let main_v21 : FVec F S16x96x256 .f32 := (fun x v => Host.reduceAdd x v reducesTo_S16x96x256x4_S16x96x256_d3 h_S_) main_v20 main_cst_7
  let main_cst_8 : FVec F S_ .f32 := constant S_ .f32 0x00000000#32
  let main_v22 : FVec F S16x96x256 .f32 := broadcastInDim S16x96x256 ![] bcast_S_S16x96x256 main_cst_8
  let main_v23 : IVec S16x96x256 1 := cmpf .ogt main_v21 main_v22
  let main_c_9 : IVec S_ 1 := constantI S_ 1 1#1
  let main_v24 : IVec S_ 1 := (fun x v => Host.reduce IntOp.andi x v reducesTo_S16x96x256_S_d0_1_2 h_S_) main_v23 main_c_9
  let main_v25 : IVec S_ 1 := andi main_v19 main_v24
  main_v25

def fn {F : FTy → Type} [FloatOps F] (main_arg0 : FVec F S16x96x256x4 .f32) (main_arg1 : FVec F S16x256x96x256 .f32) (main_arg2 : FVec F S16x96x256x4 .f32) : IVec S_ 1 :=
  let main_v0 : FVec F S16x96x256x4 .f32 := Host.absf main_arg0
  let main_cst : FVec F S_ .f32 := constant S_ .f32 0x7F800000#32
  let main_v1 : FVec F S16x96x256x4 .f32 := broadcastInDim S16x96x256x4 ![] bcast_S_S16x96x256x4 main_cst
  let main_v2 : IVec S16x96x256x4 1 := cmpf .olt main_v0 main_v1
  let main_c : IVec S_ 1 := constantI S_ 1 1#1
  let main_v3 : IVec S_ 1 := (fun x v => Host.reduce IntOp.andi x v reducesTo_S16x96x256x4_S_d0_1_2_3 h_S_) main_v2 main_c
  let main_v4 : FVec F S16x256x96x256 .f32 := Host.absf main_arg1
  let main_cst_0 : FVec F S_ .f32 := constant S_ .f32 0x7F800000#32
  let main_v5 : FVec F S16x256x96x256 .f32 := broadcastInDim S16x256x96x256 ![] bcast_S_S16x256x96x256 main_cst_0
  let main_v6 : IVec S16x256x96x256 1 := cmpf .olt main_v4 main_v5
  let main_c_1 : IVec S_ 1 := constantI S_ 1 1#1
  let main_v7 : IVec S_ 1 := (fun x v => Host.reduce IntOp.andi x v reducesTo_S16x256x96x256_S_d0_1_2_3 h_S_) main_v6 main_c_1
  let main_v8 : IVec S_ 1 := andi main_v3 main_v7
  let main_v9 : FVec F S16x96x256x4 .f32 := Host.absf main_arg2
  let main_cst_2 : FVec F S_ .f32 := constant S_ .f32 0x7F800000#32
  let main_v10 : FVec F S16x96x256x4 .f32 := broadcastInDim S16x96x256x4 ![] bcast_S_S16x96x256x4 main_cst_2
  let main_v11 : IVec S16x96x256x4 1 := cmpf .olt main_v9 main_v10
  let main_c_3 : IVec S_ 1 := constantI S_ 1 1#1
  let main_v12 : IVec S_ 1 := (fun x v => Host.reduce IntOp.andi x v reducesTo_S16x96x256x4_S_d0_1_2_3 h_S_) main_v11 main_c_3
  let main_v13 : IVec S_ 1 := andi main_v8 main_v12
  let main_v14 : FVec F S16x96x256x4 .f32 := mulf main_arg0 main_arg0
  let main_cst_4 : FVec F S_ .f32 := constant S_ .f32 0x00000000#32
  let main_v15 : FVec F S16x96x256 .f32 := (fun x v => Host.reduceAdd x v reducesTo_S16x96x256x4_S16x96x256_d3 h_S_) main_v14 main_cst_4
  let main_cst_5 : FVec F S_ .f32 := constant S_ .f32 0x00000000#32
  fn_part1 (F := F) main_arg2 main_v13 main_v15 main_cst_5
-- ==== Kernel.lean ====
abbrev S16x96x256x4 : Shape := ⟨4, ![16, 96, 256, 4]⟩
abbrev S16x256x96x256 : Shape := ⟨4, ![16, 256, 96, 256]⟩
abbrev S16x256x4x96 : Shape := ⟨4, ![16, 256, 4, 96]⟩
abbrev S16x256x96x96 : Shape := ⟨4, ![16, 256, 96, 96]⟩
abbrev S1x32x4x96 : Shape := ⟨4, ![1, 32, 4, 96]⟩
abbrev S1x32x96x256 : Shape := ⟨4, ![1, 32, 96, 256]⟩
abbrev S1x32x96x96 : Shape := ⟨4, ![1, 32, 96, 96]⟩
abbrev S32x4x96 : Shape := ⟨3, ![32, 4, 96]⟩
abbrev S32x96x256 : Shape := ⟨3, ![32, 96, 256]⟩
abbrev S32x96x4 : Shape := ⟨3, ![32, 96, 4]⟩
abbrev S32x96 : Shape := ⟨2, ![32, 96]⟩
abbrev S32x96x1 : Shape := ⟨3, ![32, 96, 1]⟩
abbrev S32x96x96 : Shape := ⟨3, ![32, 96, 96]⟩

abbrev nBuf : Space → Nat
  | .hbm => 7
  | .vmem => 10
  | .smem => 0
  | _ => 0

abbrev bufTy : (tb : Table) → Fin (tcTables nBuf tb) → BufTy
  | .hbm, ⟨0, _⟩ => ⟨S16x96x256x4, .f32⟩
  | .hbm, ⟨1, _⟩ => ⟨S16x256x96x256, .f32⟩
  | .hbm, ⟨2, _⟩ => ⟨S16x96x256x4, .f32⟩
  | .hbm, ⟨3, _⟩ => ⟨S16x256x4x96, .f32⟩
  | .hbm, ⟨4, _⟩ => ⟨S16x256x4x96, .f32⟩
  | .hbm, ⟨5, _⟩ => ⟨S16x256x96x96, .f32⟩
  | .hbm, ⟨6, _⟩ => ⟨S16x256x96x256, .f32⟩
  | .local _ .vmem, ⟨0, _⟩ => ⟨S1x32x4x96, .f32⟩
  | .local _ .vmem, ⟨1, _⟩ => ⟨S1x32x4x96, .f32⟩
  | .local _ .vmem, ⟨2, _⟩ => ⟨S1x32x4x96, .f32⟩
  | .local _ .vmem, ⟨3, _⟩ => ⟨S1x32x4x96, .f32⟩
  | .local _ .vmem, ⟨4, _⟩ => ⟨S1x32x96x256, .f32⟩
  | .local _ .vmem, ⟨5, _⟩ => ⟨S1x32x96x256, .f32⟩
  | .local _ .vmem, ⟨6, _⟩ => ⟨S1x32x96x96, .f32⟩
  | .local _ .vmem, ⟨7, _⟩ => ⟨S1x32x96x96, .f32⟩
  | .local _ .vmem, ⟨8, _⟩ => ⟨S1x32x96x256, .f32⟩
  | .local _ .vmem, ⟨9, _⟩ => ⟨S1x32x96x256, .f32⟩
  | _, _ => ⟨S16x96x256x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x4x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x4x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x96x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x96x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x96x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S16x96x256x4_S16x256x4x96_0_2_3_1 : S16x96x256x4.Transposes [0, 2, 3, 1] S16x256x4x96
  inb_S1x32x4x96_S1x32x4x96_0_0_0_0 : ∀ a, (![0, 0, 0, 0] : Fin 4 → Nat) a + S1x32x4x96.size a ≤ S1x32x4x96.size a
  h_S1x32x4x96 : 0 < S1x32x4x96.numel
  shapeCasts_S1x32x4x96_S32x4x96 : S1x32x4x96.ShapeCasts S32x4x96
  inb_S1x32x96x256_S1x32x96x256_0_0_0_0 : ∀ a, (![0, 0, 0, 0] : Fin 4 → Nat) a + S1x32x96x256.size a ≤ S1x32x96x256.size a
  h_S1x32x96x256 : 0 < S1x32x96x256.numel
  shapeCasts_S1x32x96x256_S32x96x256 : S1x32x96x256.ShapeCasts S32x96x256
  transposes_S32x4x96_p0_2_1_S32x96x4 : S32x4x96.Transposes [0, 2, 1] S32x96x4
  reduces_S32x96x4_S32x96 : S32x96x4.Reduces [2] S32x96
  shapeCasts_S32x96_S32x96x1 : S32x96.ShapeCasts S32x96x1
  broadcasts_S32x96x1_S32x96x4 : S32x96x1.Broadcasts S32x96x4
  reduces_S32x96x96_S32x96 : S32x96x96.Reduces [2] S32x96
  broadcasts_S32x96x1_S32x96x96 : S32x96x1.Broadcasts S32x96x96
  inb_S1x32x96x96_S1x32x96x96_0_0_0_0 : ∀ a, (![0, 0, 0, 0] : Fin 4 → Nat) a + S1x32x96x96.size a ≤ S1x32x96x96.size a
  h_S1x32x96x96 : 0 < S1x32x96x96.numel
  shapeCasts_S1x32x96x96_S32x96x96 : S1x32x96x96.ShapeCasts S32x96x96
  shapeCasts_S32x96x96_S1x32x96x96 : S32x96x96.ShapeCasts S1x32x96x96
  bitsLt_bf16_f32 : FTy.bits .bf16 < FTy.bits .f32
  shapeCasts_S32x96x256_S1x32x96x256 : S32x96x256.ShapeCasts S1x32x96x256
  dot_S32x96x4_S32x96x4_S32x96x96_2_2_1_1_0_0_wf : DotDims.WF S32x96x4 S32x96x4 S32x96x96 [2] [2] [1] [1] [0] [0]
  dot_S32x96x96_S32x96x256_S32x96x256_2_1_1_2_0_0_wf : DotDims.WF S32x96x96 S32x96x256 S32x96x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x4x96.size a ≤ S16x256x4x96.size a
  hwx0_0 : ∀ i : grid0.Coords, EltTy.bits .f32 = 32 ∨ (Rect.block (s := S16x256x4x96) S1x32x4x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x4x96.size a ≤ S16x256x4x96.size a
  hwx0_1 : ∀ i : grid0.Coords, EltTy.bits .f32 = 32 ∨ (Rect.block (s := S16x256x4x96) S1x32x4x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x96x256.size a ≤ S16x256x96x256.size a
  hwx0_2 : ∀ i : grid0.Coords, EltTy.bits .f32 = 32 ∨ (Rect.block (s := S16x256x96x256) S1x32x96x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x96x96.size a ≤ S16x256x96x96.size a
  hwx0_3 : ∀ i : grid0.Coords, EltTy.bits .f32 = 32 ∨ (Rect.block (s := S16x256x96x96) S1x32x96x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x96x256.size a ≤ S16x256x96x256.size a
  hwx0_4 : ∀ i : grid0.Coords, EltTy.bits .f32 = 32 ∨ (Rect.block (s := S16x256x96x256) S1x32x96x256.size (cc0_transform_4 i) (hinb0_4 i)).WholeWords (EltTy.packing .f32)

variable [Facts₀]

def dot_S32x96x4_S32x96x4_S32x96x96_2_2_1_1_0_0 : DotDims S32x96x4 S32x96x4 S32x96x96 where
  lhsContracting := [2]
  rhsContracting := [2]
  lhsNonContracting := [1]
  rhsNonContracting := [1]
  lhsBatch := [0]
  rhsBatch := [0]
  wf := dot_S32x96x4_S32x96x4_S32x96x96_2_2_1_1_0_0_wf
def dot_S32x96x96_S32x96x256_S32x96x256_2_1_1_2_0_0 : DotDims S32x96x96 S32x96x256 S32x96x256 where
  lhsContracting := [2]
  rhsContracting := [1]
  lhsNonContracting := [1]
  rhsNonContracting := [2]
  lhsBatch := [0]
  rhsBatch := [0]
  wf := dot_S32x96x96_S32x96x256_S32x96x256_2_1_1_2_0_0_wf

abbrev win0_0 : Pipeline.Window sig grid0 :=
  Pipeline.Window.ofSpec (Memref.whole main_v0) S1x32x4x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x4x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x32x96x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x32x96x96.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x32x96x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x96x256x4 : Shape := ⟨4, ![16, 96, 256, 4]⟩
abbrev S16x256x96x256 : Shape := ⟨4, ![16, 256, 96, 256]⟩
abbrev S16x256x96x4 : Shape := ⟨4, ![16, 256, 96, 4]⟩
abbrev S16x256x96x96 : Shape := ⟨4, ![16, 256, 96, 96]⟩
abbrev S_ : Shape := ⟨0, ![]⟩
abbrev S16x256x96 : Shape := ⟨3, ![16, 256, 96]⟩
abbrev S16x256x96x1 : Shape := ⟨4, ![16, 256, 96, 1]⟩
abbrev S16x256x1x96 : Shape := ⟨4, ![16, 256, 1, 96]⟩

abbrev nBuf : Space → Nat
  | .hbm => 35
  | .vmem => 0
  | .smem => 0
  | _ => 0

abbrev bufTy : (tb : Table) → Fin (tcTables nBuf tb) → BufTy
  | .hbm, ⟨0, _⟩ => ⟨S16x96x256x4, .f32⟩
  | .hbm, ⟨1, _⟩ => ⟨S16x256x96x256, .f32⟩
  | .hbm, ⟨2, _⟩ => ⟨S16x96x256x4, .f32⟩
  | .hbm, ⟨3, _⟩ => ⟨S16x256x96x4, .f32⟩
  | .hbm, ⟨4, _⟩ => ⟨S16x256x96x4, .f32⟩
  | .hbm, ⟨5, _⟩ => ⟨S16x256x96x96, .f32⟩
  | .hbm, ⟨6, _⟩ => ⟨S16x256x96x4, .f32⟩
  | .hbm, ⟨7, _⟩ => ⟨S_, .f32⟩
  | .hbm, ⟨8, _⟩ => ⟨S16x256x96, .f32⟩
  | .hbm, ⟨9, _⟩ => ⟨S16x256x96, .f32⟩
  | .hbm, ⟨10, _⟩ => ⟨S16x256x96x4, .f32⟩
  | .hbm, ⟨11, _⟩ => ⟨S_, .f32⟩
  | .hbm, ⟨12, _⟩ => ⟨S16x256x96, .f32⟩
  | .hbm, ⟨13, _⟩ => ⟨S16x256x96, .f32⟩
  | .hbm, ⟨14, _⟩ => ⟨S16x256x96x1, .f32⟩
  | .hbm, ⟨15, _⟩ => ⟨S16x256x1x96, .f32⟩
  | .hbm, ⟨16, _⟩ => ⟨S16x256x96x96, .f32⟩
  | .hbm, ⟨17, _⟩ => ⟨S16x256x96x96, .f32⟩
  | .hbm, ⟨18, _⟩ => ⟨S16x256x96x96, .f32⟩
  | .hbm, ⟨19, _⟩ => ⟨S16x256x96x96, .f32⟩
  | .hbm, ⟨20, _⟩ => ⟨S_, .f32⟩
  | .hbm, ⟨21, _⟩ => ⟨S16x256x96, .f32⟩
  | .hbm, ⟨22, _⟩ => ⟨S_, .f32⟩
  | .hbm, ⟨23, _⟩ => ⟨S16x256x96, .f32⟩
  | .hbm, ⟨24, _⟩ => ⟨S16x256x96, .f32⟩
  | .hbm, ⟨25, _⟩ => ⟨S16x256x96x1, .f32⟩
  | .hbm, ⟨26, _⟩ => ⟨S16x256x96x96, .f32⟩
  | .hbm, ⟨27, _⟩ => ⟨S16x256x96x96, .f32⟩
  | .hbm, ⟨28, _⟩ => ⟨S16x256x96x96, .f32⟩
  | .hbm, ⟨29, _⟩ => ⟨S_, .f32⟩
  | .hbm, ⟨30, _⟩ => ⟨S16x256x96, .f32⟩
  | .hbm, ⟨31, _⟩ => ⟨S16x256x96x1, .f32⟩
  | .hbm, ⟨32, _⟩ => ⟨S16x256x96x96, .f32⟩
  | .hbm, ⟨33, _⟩ => ⟨S16x256x96x96, .f32⟩
  | .hbm, ⟨34, _⟩ => ⟨S16x256x96x256, .f32⟩
  | _, _ => ⟨S16x96x256x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v3 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  transposes_S16x96x256x4_S16x256x96x4_0_2_1_3 : S16x96x256x4.Transposes [0, 2, 1, 3] S16x256x96x4
  reducesTo_S16x256x96x4_S16x256x96_d3 : S16x256x96x4.ReducesTo [3] S16x256x96
  h_S_ : 0 < S_.numel
  bcast_S16x256x96_S16x256x96x1_0_1_2 : S16x256x96.BroadcastsInDim S16x256x96x1 (![0, 1, 2] : Fin 3 → Fin S16x256x96x1.rank)
  bcast_S16x256x96_S16x256x1x96_0_1_3 : S16x256x96.BroadcastsInDim S16x256x1x96 (![0, 1, 3] : Fin 3 → Fin S16x256x1x96.rank)
  bcast_S16x256x96x1_S16x256x96x96_0_1_2_3 : S16x256x96x1.BroadcastsInDim S16x256x96x96 (![0, 1, 2, 3] : Fin 4 → Fin S16x256x96x96.rank)
  bcast_S16x256x1x96_S16x256x96x96_0_1_2_3 : S16x256x1x96.BroadcastsInDim S16x256x96x96 (![0, 1, 2, 3] : Fin 4 → Fin S16x256x96x96.rank)
  reducesTo_S16x256x96x96_S16x256x96_d3 : S16x256x96x96.ReducesTo [3] S16x256x96
  bcast_S_S16x256x96 : S_.BroadcastsInDim S16x256x96 (![] : Fin 0 → Fin S16x256x96.rank)
  dot_S16x256x96x4_S16x256x96x4_S16x256x96x96_3_3_2_2_01_01_wf : DotDims.WF S16x256x96x4 S16x256x96x4 S16x256x96x96 [3] [3] [2] [2] [0, 1] [0, 1]
  dot_S16x256x96x96_S16x256x96x256_S16x256x96x256_3_2_2_3_01_01_wf : DotDims.WF S16x256x96x96 S16x256x96x256 S16x256x96x256 [3] [2] [2] [3] [0, 1] [0, 1]

variable [Facts₀]

def dot_S16x256x96x4_S16x256x96x4_S16x256x96x96_3_3_2_2_01_01 : DotDims S16x256x96x4 S16x256x96x4 S16x256x96x96 where
  lhsContracting := [3]
  rhsContracting := [3]
  lhsNonContracting := [2]
  rhsNonContracting := [2]
  lhsBatch := [0, 1]
  rhsBatch := [0, 1]
  wf := dot_S16x256x96x4_S16x256x96x4_S16x256x96x96_3_3_2_2_01_01_wf
def dot_S16x256x96x96_S16x256x96x256_S16x256x96x256_3_2_2_3_01_01 : DotDims S16x256x96x96 S16x256x96x256 S16x256x96x256 where
  lhsContracting := [3]
  rhsContracting := [2]
  lhsNonContracting := [2]
  rhsNonContracting := [3]
  lhsBatch := [0, 1]
  rhsBatch := [0, 1]
  wf := dot_S16x256x96x96_S16x256x96x256_S16x256x96x256_3_2_2_3_01_01_wf

class Facts : Prop extends Facts₀ where

variable [Facts]
-- ==== Proof.LibERealFinite.lean ====
/-
  Two general facts about extended reals read as ideal float values.

  * `coe_sum`: the coercion of the reals into the extended reals commutes with finite sums, so an identity between sums
    and products of real-valued entries can be proved over the reals and carried back.
  * `real_of_abs_lt`: an extended real whose absolute value `max x (-x)` compares strictly below the f32 pattern of `+∞`
    (`0x7F800000`) is a real number — what a "every entry is finite" precondition gives, entry by entry (`inf_eq`: that
    pattern is `⊤`).
-/
import Idealize.ShloMosaic.PureOps.Ideal

noncomputable section

namespace Cert.LibERealFinite

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x7F800000` is `+∞`. -/
theorem inf_eq : Ideal.ofBits .f32 0x7F800000#32 = (⊤ : EReal) := by
  simp [Ideal.ofBits, Ideal.ieee]

/-- An extended real whose absolute value compares strictly below `+∞` is a real number. -/
theorem real_of_abs_lt (x : EReal) (h : Ideal.cmp .olt (max x (-x)) (Ideal.ofBits .f32 0x7F800000#32) = 1#1) :
    ∃ v : ℝ, x = (v : EReal) := by
  rw [inf_eq] at h
  induction x using EReal.rec with
  | bot => simp [Ideal.cmp] at h
  | coe v => exact ⟨v, rfl⟩
  | top => simp [Ideal.cmp] at h

end Cert.LibERealFinite

end
-- ==== Proof.CosineSoftmax.lean ====
/-
  The mathematics of this certificate, with no program in it: the cosine score of two time vectors in the two
  arrangements the two programs use, their equality on real vectors of positive length, and the row softmax both
  programs then apply.

  A time vector is a function `Fin 4 → EReal`. Its squared length is `sq v = ∑ d, v d * v d` and its length
  `len v = √(sq v)`. The kernel divides each vector by its length and then contracts (`cosPre`); the reference
  contracts and then divides by the product of the two lengths (`cosPost`). On the extended reals a quotient by zero
  is an infinity or the junk value `⊥`, so the two differ at a vector of length zero; for REAL entries and POSITIVE
  squared lengths both are the real number `(∑ d, a d * e d) / (|a| * |e|)` (`cosPre_eq_cosPost`).

  The softmax of a row `r : Fin 96 → EReal` is `exp (r s - M) / ∑ k, exp (r k - M)` with `M` the fold of `max`
  over the row from `⊥` (`rowMax`, `soft`).
-/
import Idealize.ShloMosaic.PureOps.Ideal
import Idealize.ShloMosaic.PureOps.Ideal.Laws
import proofs.«164457_j31696858644737_2_alg».proof.Proof.LibERealFinite

noncomputable section

namespace Cert.CosAttn

open Idealize.ShloMosaic

/-- The squared length of a time vector. -/
def sq (v : Fin 4 → EReal) : EReal := ∑ d : Fin 4, v d * v d

/-- The length of a time vector. -/
def len (v : Fin 4 → EReal) : EReal := Ideal.sqrt (sq v)

/-- The cosine with each vector divided by its length BEFORE the contraction. -/
def cosPre (a e : Fin 4 → EReal) : EReal := ∑ d : Fin 4, Ideal.div (a d) (len a) * Ideal.div (e d) (len e)

/-- The cosine with the contraction divided by the product of the lengths AFTERWARDS. -/
def cosPost (a e : Fin 4 → EReal) : EReal := Ideal.div (∑ d : Fin 4, a d * e d) (len a * len e)

/-- The squared length of a real vector is the real sum of squares. -/
theorem sq_coe (a : Fin 4 → ℝ) : sq (fun d => (a d : EReal)) = ((∑ d : Fin 4, a d * a d : ℝ) : EReal) := by
  unfold sq
  rw [LibERealFinite.coe_sum]
  exact Finset.sum_congr rfl fun d _ => (EReal.coe_mul _ _).symm

/-- The length of a real vector is the real square root of its sum of squares. -/
theorem len_coe (a : Fin 4 → ℝ) : len (fun d => (a d : EReal)) = ((Real.sqrt (∑ d : Fin 4, a d * a d) : ℝ) : EReal) := by
  unfold len
  rw [sq_coe, Ideal.sqrt_coe, if_neg (not_lt.mpr (Finset.sum_nonneg fun d _ => mul_self_nonneg (a d)))]

/-- On real vectors of positive squared length the two arrangements are the same real number: a factor `1 / |a|` and a
    factor `1 / |e|` in every term of the sum, or the one factor `1 / (|a| * |e|)` on the whole sum. -/
theorem cosPre_eq_cosPost (a e : Fin 4 → EReal) (ha : ∀ d, ∃ r : ℝ, a d = (r : EReal)) (he : ∀ d, ∃ r : ℝ, e d = (r : EReal))
    (hpa : 0 < sq a) (hpe : 0 < sq e) : cosPre a e = cosPost a e := by
  choose a' ha' using ha
  choose e' he' using he
  obtain rfl : a = fun d => (a' d : EReal) := funext ha'
  obtain rfl : e = fun d => (e' d : EReal) := funext he'
  rw [sq_coe] at hpa hpe
  have hA : 0 < ∑ d : Fin 4, a' d * a' d := EReal.coe_pos.mp hpa
  have hE : 0 < ∑ d : Fin 4, e' d * e' d := EReal.coe_pos.mp hpe
  have hx : Real.sqrt (∑ d : Fin 4, a' d * a' d) ≠ 0 := (Real.sqrt_pos.mpr hA).ne'
  have hy : Real.sqrt (∑ d : Fin 4, e' d * e' d) ≠ 0 := (Real.sqrt_pos.mpr hE).ne'
  unfold cosPre cosPost
  rw [len_coe, len_coe]
  generalize Real.sqrt (∑ d : Fin 4, a' d * a' d) = x at hx
  generalize Real.sqrt (∑ d : Fin 4, e' d * e' d) = y at hy
  have hl : ∀ d : Fin 4, Ideal.div (a' d : EReal) (x : EReal) * Ideal.div (e' d : EReal) (y : EReal)
      = ((a' d * (1 / x) * (e' d * (1 / y)) : ℝ) : EReal) := fun d => by
    rw [Ideal.div_coe hx, Ideal.div_coe hy, ← EReal.coe_mul, ← EReal.coe_mul, ← EReal.coe_mul]
  rw [Finset.sum_congr rfl fun d _ => hl d, ← LibERealFinite.coe_sum]
  have hr : (∑ d : Fin 4, (a' d : EReal) * (e' d : EReal)) = ((∑ d : Fin 4, a' d * e' d : ℝ) : EReal) := by
    rw [LibERealFinite.coe_sum]
    exact Finset.sum_congr rfl fun d _ => (EReal.coe_mul _ _).symm
  rw [hr, ← EReal.coe_mul, Ideal.div_coe (mul_ne_zero hx hy), ← EReal.coe_mul]
  refine congrArg (fun r : ℝ => (r : EReal)) ?_
  rw [Finset.sum_mul]
  refine Finset.sum_congr rfl fun d _ => ?_
  field_simp

/-- The f32 pattern `0xFF800000` is `-∞`. -/
theorem negInf_eq : Ideal.ofBits .f32 0xFF800000#32 = (⊥ : EReal) := by
  simp [Ideal.ofBits, Ideal.ieee]

/-- The maximum of a row, folded from `-∞`. -/
def rowMax (r : Fin 96 → EReal) : EReal := (Finset.univ : Finset (Fin 96)).fold max (⊥ : EReal) r

/-- The softmax of a row at `s`: the exponential of the entry less the row's maximum, over the sum of those. -/
def soft (r : Fin 96 → EReal) (s : Fin 96) : EReal :=
  Ideal.div (Ideal.exp (r s - rowMax r)) (∑ k : Fin 96, Ideal.exp (r k - rowMax r))

end Cert.CosAttn

end
-- ==== Proof.KernelPayload.lean ====
/-
  The kernel body's arithmetic read at an index, over arbitrary loaded blocks. `P0` is the encoder's time block and
  `P1` the decoder's, each [1, 32, 4, 96] (a unit axis, the series of the block, the feature, the step); `P2` is the
  targets' block [1, 32, 96, 256] (unit, series, source step, channel).

  The body re-lays each time block as [32, 96, 4] (series, step, feature: `tr`), divides each time vector by its length
  (`unit`, over `nrm`), contracts the decoder's unit vectors with the encoder's over the feature (`score`), and takes the
  softmax of each row of scores (`softm`). So the attention block at (n, p, s) is the softmax over `s` of the cosines, in
  the divide-then-contract arrangement, of the decoder's vector at (n, p) with the encoder's vectors at (n, s)
  (`pay2_apply`); and the output block at (n, p, e) is the sum over `s` of that weight times the target at (n, s, e)
  (`pay1_apply`: the change of format into the second product is the identity on extended reals).
-/
import proofs.«164457_j31696858644737_2_alg».proof.Proof.Gen.KernelIdeal.Frame
import proofs.«164457_j31696858644737_2_alg».proof.Proof.CosineSoftmax
import Idealize.ShloMosaic.Lib.ValueIdx
import Idealize.ShloMosaic.Lib.Pipeline.Value
import Idealize.ShloMosaic.PureOps.Ideal.Laws

noncomputable section

namespace Cert.KerAttn

open Idealize.ShloMosaic Idealize.ShloMosaic.ValueIdx Cert.KernelIdeal Cert.KernelIdeal.Gen
open Cert.CosAttn

/-! ## The stages -/

/-- A loaded time block [1, 32, 4, 96] re-laid as [32, 96, 4]: series, step, feature. -/
def tr (P : Vec Ideal S1x32x4x96 .f32) : FVec Ideal S32x96x4 .f32 :=
  transpose S32x96x4 [0, 2, 1] (shapeCast S32x4x96 P shapeCasts_S1x32x4x96_S32x4x96) transposes_S32x4x96_p0_2_1_S32x96x4

/-- The length of every time vector of a [32, 96, 4] block. -/
def nrm (v : FVec Ideal S32x96x4 .f32) : FVec Ideal S32x96 .f32 :=
  sqrt (multiReduction .add [2] S32x96 (mulf v v) 0x00000000#32 reduces_S32x96x4_S32x96 (.inl rfl) rfl)

/-- Every time vector divided by its length. -/
def unit (v : FVec Ideal S32x96x4 .f32) : FVec Ideal S32x96x4 .f32 :=
  divf v (broadcastTo S32x96x4 (shapeCast S32x96x1 (nrm v) shapeCasts_S32x96_S32x96x1) broadcasts_S32x96x1_S32x96x4)

/-- The scores: the decoder's unit vectors against the encoder's, contracted over the feature. -/
def score (P0 P1 : Vec Ideal S1x32x4x96 .f32) : FVec Ideal S32x96x96 .f32 :=
  matmul dot_S32x96x4_S32x96x4_S32x96x96_2_2_1_1_0_0 (some .fp32) (unit (tr P1)) (unit (tr P0))
    (constant S32x96x96 .f32 0x00000000#32)

/-- The exponentials of a block of scores less each row's maximum. -/
def expo (r : FVec Ideal S32x96x96 .f32) : FVec Ideal S32x96x96 .f32 :=
  exp (subf r (broadcastTo S32x96x96 (shapeCast S32x96x1
    (multiReduction .maximumf [2] S32x96 r 0xFF800000#32 reduces_S32x96x96_S32x96 (.inl rfl) rfl)
    shapeCasts_S32x96_S32x96x1) broadcasts_S32x96x1_S32x96x96))

/-- The softmax of every row of a block of scores. -/
def softm (r : FVec Ideal S32x96x96 .f32) : FVec Ideal S32x96x96 .f32 :=
  divf (expo r) (broadcastTo S32x96x96 (shapeCast S32x96x1
    (multiReduction .add [2] S32x96 (expo r) 0x00000000#32 reduces_S32x96x96_S32x96 (.inl rfl) rfl)
    shapeCasts_S32x96_S32x96x1) broadcasts_S32x96x1_S32x96x96)

/-- The body's attention payload is the softmax of the scores. -/
theorem pay2_eq (P0 P1 : Vec Ideal S1x32x4x96 .f32) : k0_pay2 (F := Ideal) P0 P1 = softm (score P0 P1) := rfl

/-! ## Each stage at an index -/

theorem tr_apply (P : Vec Ideal S1x32x4x96 .f32) (n : Fin 32) (s : Fin 96) (d : Fin 4) :
    tr P (ix3 n s d) = P (ix4 (0 : Fin 1) n d s) := by
  unfold tr
  refine (transpose_apply [0, 2, 1] _ transposes_S32x4x96_p0_2_1_S32x96x4 (ix3 n s d) (ix3 n d s) (fun b => by
    match b with | ⟨0, _⟩ => rfl | ⟨1, _⟩ => rfl | ⟨2, _⟩ => rfl)).trans ?_
  exact shapeCast_apply P shapeCasts_S1x32x4x96_S32x4x96 (ix3 n d s) (ix4 (0 : Fin 1) n d s) (by
    rw [Shape.rowMajor_val_four, Shape.rowMajor_val_three]
    show ((0 * 32 + n.val) * 4 + d.val) * 96 + s.val = (n.val * 4 + d.val) * 96 + s.val
    omega)

/-- A lane sum of a [32, 96, 4] block at (n, s) is the sum over the four features. -/
theorem sum4_apply (v : FVec Ideal S32x96x4 .f32) (n : Fin 32) (s : Fin 96) :
    multiReduction .add [2] S32x96 v 0x00000000#32 reduces_S32x96x4_S32x96 (.inl rfl) rfl (ix2 n s)
      = ∑ d : Fin 4, v (ix3 n s d) := by
  refine (Ideal.multiReduction_add_single v 0x00000000#32 reduces_S32x96x4_S32x96 (.inl rfl) rfl (ix2 n s)).trans ?_
  refine Finset.sum_congr rfl fun k _ => ?_
  exact congrArg v (funext fun a => Fin.ext (by match a with | ⟨0, _⟩ => rfl | ⟨1, _⟩ => rfl | ⟨2, _⟩ => rfl))

/-- A lane sum of a [32, 96, 96] block at (n, p) is the sum over the row. -/
theorem sum96_apply (v : FVec Ideal S32x96x96 .f32) (n : Fin 32) (p : Fin 96) :
    multiReduction .add [2] S32x96 v 0x00000000#32 reduces_S32x96x96_S32x96 (.inl rfl) rfl (ix2 n p)
      = ∑ s : Fin 96, v (ix3 n p s) := by
  refine (Ideal.multiReduction_add_single v 0x00000000#32 reduces_S32x96x96_S32x96 (.inl rfl) rfl (ix2 n p)).trans ?_
  refine Finset.sum_congr rfl fun k _ => ?_
  exact congrArg v (funext fun a => Fin.ext (by match a with | ⟨0, _⟩ => rfl | ⟨1, _⟩ => rfl | ⟨2, _⟩ => rfl))

/-- A lane maximum of a [32, 96, 96] block at (n, p), from `-∞`, is the maximum of the row. -/
theorem max96_apply (v : FVec Ideal S32x96x96 .f32) (n : Fin 32) (p : Fin 96) :
    multiReduction .maximumf [2] S32x96 v 0xFF800000#32 reduces_S32x96x96_S32x96 (.inl rfl) rfl (ix2 n p)
      = rowMax (fun s => v (ix3 n p s)) := by
  refine (Ideal.multiReduction_maximumf_single v 0xFF800000#32 reduces_S32x96x96_S32x96 (.inl rfl) rfl (ix2 n p)).trans ?_
  have hf : (v ∘ reduces_S32x96x96_S32x96.lift (ix2 n p)) = fun s : Fin 96 => v (ix3 n p s) :=
    funext fun k => congrArg v (funext fun a => Fin.ext (by match a with | ⟨0, _⟩ => rfl | ⟨1, _⟩ => rfl | ⟨2, _⟩ => rfl))
  rw [hf]
  show (Finset.univ : Finset (Fin 96)).fold max (Ideal.ofBits .f32 0xFF800000#32) _ = _
  rw [negInf_eq]
  rfl

/-- A [32, 96] column put back beside four features: at (n, s, d) it is the column at (n, s). -/
theorem col4_apply (w : FVec Ideal S32x96 .f32) (n : Fin 32) (s : Fin 96) (d : Fin 4) :
    broadcastTo S32x96x4 (shapeCast S32x96x1 w shapeCasts_S32x96_S32x96x1) broadcasts_S32x96x1_S32x96x4 (ix3 n s d)
      = w (ix2 n s) := by
  refine (broadcastTo_apply _ broadcasts_S32x96x1_S32x96x4 (ix3 n s d) (ix3 n s (0 : Fin 1)) (fun a => by
    match a with
    | ⟨0, _⟩ => show n.val = if (32 : Nat) = 1 then 0 else n.val; rw [if_neg (by decide)]
    | ⟨1, _⟩ => show s.val = if (96 : Nat) = 1 then 0 else s.val; rw [if_neg (by decide)]
    | ⟨2, _⟩ => show 0 = if (1 : Nat) = 1 then 0 else d.val; rw [if_pos rfl])).trans ?_
  exact shapeCast_apply w shapeCasts_S32x96_S32x96x1 (ix3 n s (0 : Fin 1)) (ix2 n s) (by
    rw [Shape.rowMajor_val_two, Shape.rowMajor_val_three]
    show n.val * 96 + s.val = (n.val * 96 + s.val) * 1 + 0
    omega)

/-- A [32, 96] column put back beside a row of 96: at (n, p, s) it is the column at (n, p). -/
theorem col96_apply (w : FVec Ideal S32x96 .f32) (n : Fin 32) (p s : Fin 96) :
    broadcastTo S32x96x96 (shapeCast S32x96x1 w shapeCasts_S32x96_S32x96x1) broadcasts_S32x96x1_S32x96x96 (ix3 n p s)
      = w (ix2 n p) := by
  refine (broadcastTo_apply _ broadcasts_S32x96x1_S32x96x96 (ix3 n p s) (ix3 n p (0 : Fin 1)) (fun a => by
    match a with
    | ⟨0, _⟩ => show n.val = if (32 : Nat) = 1 then 0 else n.val; rw [if_neg (by decide)]
    | ⟨1, _⟩ => show p.val = if (96 : Nat) = 1 then 0 else p.val; rw [if_neg (by decide)]
    | ⟨2, _⟩ => show 0 = if (1 : Nat) = 1 then 0 else s.val; rw [if_pos rfl])).trans ?_
  exact shapeCast_apply w shapeCasts_S32x96_S32x96x1 (ix3 n p (0 : Fin 1)) (ix2 n p) (by
    rw [Shape.rowMajor_val_two, Shape.rowMajor_val_three]
    show n.val * 96 + p.val = (n.val * 96 + p.val) * 1 + 0
    omega)

/-- The length of the time vector at (n, s). -/
theorem nrm_apply (v : FVec Ideal S32x96x4 .f32) (n : Fin 32) (s : Fin 96) :
    nrm v (ix2 n s) = len (fun d => v (ix3 n s d)) := by
  unfold nrm
  show Ideal.sqrt (multiReduction .add [2] S32x96 (mulf v v) 0x00000000#32 reduces_S32x96x4_S32x96 (.inl rfl) rfl (ix2 n s)) = _
  rw [sum4_apply]
  rfl

/-- The unit vector at (n, s): each feature over the vector's length. -/
theorem unit_apply (v : FVec Ideal S32x96x4 .f32) (n : Fin 32) (s : Fin 96) (d : Fin 4) :
    unit v (ix3 n s d) = Ideal.div (v (ix3 n s d)) (len (fun d' => v (ix3 n s d'))) := by
  unfold unit
  rw [divf_apply, col4_apply, nrm_apply]

/-! ## The scores, the attention block and the output block at an index -/

/-! The first product's operand indices, coordinate by coordinate: the batch axis and the kept axis come from the
    output index, the contracted axis from the contraction index. -/

theorem scoreL0 (i : S32x96x96.Idx) (q : dot_S32x96x4_S32x96x4_S32x96x96_2_2_1_1_0_0.contr.Idx) : (dot_S32x96x4_S32x96x4_S32x96x96_2_2_1_1_0_0.lhsIdx i q 0).val = (i 0).val := by
  unfold DotDims.lhsIdx
  rw [dif_pos (show (0 : Fin S32x96x4.rank) ∈ dot_S32x96x4_S32x96x4_S32x96x96_2_2_1_1_0_0.lhsBatch by decide)]
  rfl
theorem scoreL1 (i : S32x96x96.Idx) (q : dot_S32x96x4_S32x96x4_S32x96x96_2_2_1_1_0_0.contr.Idx) : (dot_S32x96x4_S32x96x4_S32x96x96_2_2_1_1_0_0.lhsIdx i q 1).val = (i 1).val := by
  unfold DotDims.lhsIdx
  rw [dif_neg (show ¬(1 : Fin S32x96x4.rank) ∈ dot_S32x96x4_S32x96x4_S32x96x96_2_2_1_1_0_0.lhsBatch by decide),
    dif_pos (show (1 : Fin S32x96x4.rank) ∈ dot_S32x96x4_S32x96x4_S32x96x96_2_2_1_1_0_0.lhsNonContracting by decide)]
  rfl
theorem scoreL2 (i : S32x96x96.Idx) (q : dot_S32x96x4_S32x96x4_S32x96x96_2_2_1_1_0_0.contr.Idx) : (dot_S32x96x4_S32x96x4_S32x96x96_2_2_1_1_0_0.lhsIdx i q 2).val = (q ⟨0, by decide⟩).val :=
  dot_S32x96x4_S32x96x4_S32x96x96_2_2_1_1_0_0.lhsIdx_val_of_single rfl i q
theorem scoreR0 (i : S32x96x96.Idx) (q : dot_S32x96x4_S32x96x4_S32x96x96_2_2_1_1_0_0.contr.Idx) : (dot_S32x96x4_S32x96x4_S32x96x96_2_2_1_1_0_0.rhsIdx i q 0).val = (i 0).val := by
  unfold DotDims.rhsIdx
  rw [dif_pos (show (0 : Fin S32x96x4.rank) ∈ dot_S32x96x4_S32x96x4_S32x96x96_2_2_1_1_0_0.rhsBatch by decide)]
  rfl
theorem scoreR1 (i : S32x96x96.Idx) (q : dot_S32x96x4_S32x96x4_S32x96x96_2_2_1_1_0_0.contr.Idx) : (dot_S32x96x4_S32x96x4_S32x96x96_2_2_1_1_0_0.rhsIdx i q 1).val = (i 2).val := by
  unfold DotDims.rhsIdx
  rw [dif_neg (show ¬(1 : Fin S32x96x4.rank) ∈ dot_S32x96x4_S32x96x4_S32x96x96_2_2_1_1_0_0.rhsBatch by decide),
    dif_pos (show (1 : Fin S32x96x4.rank) ∈ dot_S32x96x4_S32x96x4_S32x96x96_2_2_1_1_0_0.rhsNonContracting by decide)]
  rfl
theorem scoreR2 (i : S32x96x96.Idx) (q : dot_S32x96x4_S32x96x4_S32x96x96_2_2_1_1_0_0.contr.Idx) : (dot_S32x96x4_S32x96x4_S32x96x96_2_2_1_1_0_0.rhsIdx i q 2).val = (q ⟨0, by decide⟩).val :=
  dot_S32x96x4_S32x96x4_S32x96x96_2_2_1_1_0_0.rhsIdx_val_of_single rfl i q

theorem scoreL_idx (n : Fin 32) (p s : Fin 96) (k : Fin 4) :
    dot_S32x96x4_S32x96x4_S32x96x96_2_2_1_1_0_0.lhsIdx (ix3 n p s) ((contrEquiv1 dot_S32x96x4_S32x96x4_S32x96x96_2_2_1_1_0_0 4 rfl rfl).symm k) = ix3 n p k := by
  have hk := contrEquiv1_symm_val dot_S32x96x4_S32x96x4_S32x96x96_2_2_1_1_0_0 4 rfl rfl k
  exact funext fun a => Fin.ext (by
    match a with
    | ⟨0, _⟩ => exact scoreL0 _ _
    | ⟨1, _⟩ => exact scoreL1 _ _
    | ⟨2, _⟩ => exact (scoreL2 _ _).trans hk)

theorem scoreR_idx (n : Fin 32) (p s : Fin 96) (k : Fin 4) :
    dot_S32x96x4_S32x96x4_S32x96x96_2_2_1_1_0_0.rhsIdx (ix3 n p s) ((contrEquiv1 dot_S32x96x4_S32x96x4_S32x96x96_2_2_1_1_0_0 4 rfl rfl).symm k) = ix3 n s k := by
  have hk := contrEquiv1_symm_val dot_S32x96x4_S32x96x4_S32x96x96_2_2_1_1_0_0 4 rfl rfl k
  exact funext fun a => Fin.ext (by
    match a with
    | ⟨0, _⟩ => exact scoreR0 _ _
    | ⟨1, _⟩ => exact scoreR1 _ _
    | ⟨2, _⟩ => exact (scoreR2 _ _).trans hk)

/-- The score at (n, p, s): the cosine, in the divide-then-contract arrangement, of the decoder's vector at (n, p) with
    the encoder's at (n, s). -/
theorem score_apply (P0 P1 : Vec Ideal S1x32x4x96 .f32) (n : Fin 32) (p s : Fin 96) :
    score P0 P1 (ix3 n p s)
      = cosPre (fun d => P1 (ix4 (0 : Fin 1) n d p)) (fun d => P0 (ix4 (0 : Fin 1) n d s)) := by
  unfold score
  simp only [matmul]
  rw [Ideal.matmul_constant_zero_apply,
    ← Equiv.sum_comp (contrEquiv1 dot_S32x96x4_S32x96x4_S32x96x96_2_2_1_1_0_0 4 rfl rfl).symm]
  unfold cosPre
  refine Finset.sum_congr rfl fun k _ => ?_
  rw [scoreL_idx, scoreR_idx, unit_apply, unit_apply]
  simp only [tr_apply]

/-- The exponentials at (n, p, s). -/
theorem expo_apply (r : FVec Ideal S32x96x96 .f32) (n : Fin 32) (p s : Fin 96) :
    expo r (ix3 n p s) = Ideal.exp (r (ix3 n p s) - rowMax (fun s' => r (ix3 n p s'))) := by
  unfold expo
  show Ideal.exp (subf r _ (ix3 n p s)) = _
  rw [subf_apply, col96_apply, max96_apply]

/-- The softmax at (n, p, s). -/
theorem softm_apply (r : FVec Ideal S32x96x96 .f32) (n : Fin 32) (p s : Fin 96) :
    softm r (ix3 n p s) = soft (fun s' => r (ix3 n p s')) s := by
  unfold softm
  rw [divf_apply, col96_apply, sum96_apply]
  simp only [expo_apply]
  rfl

/-- THE ATTENTION BLOCK at (n, p, s). -/
theorem pay2_apply (P0 P1 : Vec Ideal S1x32x4x96 .f32) (n : Fin 32) (p s : Fin 96) :
    k0_pay2 (F := Ideal) P0 P1 (ix3 n p s)
      = soft (fun s' => cosPre (fun d => P1 (ix4 (0 : Fin 1) n d p)) (fun d => P0 (ix4 (0 : Fin 1) n d s'))) s := by
  rw [pay2_eq, softm_apply]
  simp only [score_apply]

/-! ## The output block -/

/-! The second product's operand indices: the weights are read at (n, p, k), the targets at (n, k, e). -/

theorem outL0 (i : S32x96x256.Idx) (q : dot_S32x96x96_S32x96x256_S32x96x256_2_1_1_2_0_0.contr.Idx) : (dot_S32x96x96_S32x96x256_S32x96x256_2_1_1_2_0_0.lhsIdx i q 0).val = (i 0).val := by
  unfold DotDims.lhsIdx
  rw [dif_pos (show (0 : Fin S32x96x96.rank) ∈ dot_S32x96x96_S32x96x256_S32x96x256_2_1_1_2_0_0.lhsBatch by decide)]
  rfl
theorem outL1 (i : S32x96x256.Idx) (q : dot_S32x96x96_S32x96x256_S32x96x256_2_1_1_2_0_0.contr.Idx) : (dot_S32x96x96_S32x96x256_S32x96x256_2_1_1_2_0_0.lhsIdx i q 1).val = (i 1).val := by
  unfold DotDims.lhsIdx
  rw [dif_neg (show ¬(1 : Fin S32x96x96.rank) ∈ dot_S32x96x96_S32x96x256_S32x96x256_2_1_1_2_0_0.lhsBatch by decide),
    dif_pos (show (1 : Fin S32x96x96.rank) ∈ dot_S32x96x96_S32x96x256_S32x96x256_2_1_1_2_0_0.lhsNonContracting by decide)]
  rfl
theorem outL2 (i : S32x96x256.Idx) (q : dot_S32x96x96_S32x96x256_S32x96x256_2_1_1_2_0_0.contr.Idx) : (dot_S32x96x96_S32x96x256_S32x96x256_2_1_1_2_0_0.lhsIdx i q 2).val = (q ⟨0, by decide⟩).val :=
  dot_S32x96x96_S32x96x256_S32x96x256_2_1_1_2_0_0.lhsIdx_val_of_single rfl i q
theorem outR0 (i : S32x96x256.Idx) (q : dot_S32x96x96_S32x96x256_S32x96x256_2_1_1_2_0_0.contr.Idx) : (dot_S32x96x96_S32x96x256_S32x96x256_2_1_1_2_0_0.rhsIdx i q 0).val = (i 0).val := by
  unfold DotDims.rhsIdx
  rw [dif_pos (show (0 : Fin S32x96x256.rank) ∈ dot_S32x96x96_S32x96x256_S32x96x256_2_1_1_2_0_0.rhsBatch by decide)]
  rfl
theorem outR1 (i : S32x96x256.Idx) (q : dot_S32x96x96_S32x96x256_S32x96x256_2_1_1_2_0_0.contr.Idx) : (dot_S32x96x96_S32x96x256_S32x96x256_2_1_1_2_0_0.rhsIdx i q 1).val = (q ⟨0, by decide⟩).val :=
  dot_S32x96x96_S32x96x256_S32x96x256_2_1_1_2_0_0.rhsIdx_val_of_single rfl i q
theorem outR2 (i : S32x96x256.Idx) (q : dot_S32x96x96_S32x96x256_S32x96x256_2_1_1_2_0_0.contr.Idx) : (dot_S32x96x96_S32x96x256_S32x96x256_2_1_1_2_0_0.rhsIdx i q 2).val = (i 2).val := by
  unfold DotDims.rhsIdx
  rw [dif_neg (show ¬(2 : Fin S32x96x256.rank) ∈ dot_S32x96x96_S32x96x256_S32x96x256_2_1_1_2_0_0.rhsBatch by decide),
    dif_pos (show (2 : Fin S32x96x256.rank) ∈ dot_S32x96x96_S32x96x256_S32x96x256_2_1_1_2_0_0.rhsNonContracting by decide)]
  rfl

theorem outL_idx (n : Fin 32) (p : Fin 96) (e : Fin 256) (k : Fin 96) :
    dot_S32x96x96_S32x96x256_S32x96x256_2_1_1_2_0_0.lhsIdx (ix3 n p e) ((contrEquiv1 dot_S32x96x96_S32x96x256_S32x96x256_2_1_1_2_0_0 96 rfl rfl).symm k) = ix3 n p k := by
  have hk := contrEquiv1_symm_val dot_S32x96x96_S32x96x256_S32x96x256_2_1_1_2_0_0 96 rfl rfl k
  exact funext fun a => Fin.ext (by
    match a with
    | ⟨0, _⟩ => exact outL0 _ _
    | ⟨1, _⟩ => exact outL1 _ _
    | ⟨2, _⟩ => exact (outL2 _ _).trans hk)

theorem outR_idx (n : Fin 32) (p : Fin 96) (e : Fin 256) (k : Fin 96) :
    dot_S32x96x96_S32x96x256_S32x96x256_2_1_1_2_0_0.rhsIdx (ix3 n p e) ((contrEquiv1 dot_S32x96x96_S32x96x256_S32x96x256_2_1_1_2_0_0 96 rfl rfl).symm k) = ix3 n k e := by
  have hk := contrEquiv1_symm_val dot_S32x96x96_S32x96x256_S32x96x256_2_1_1_2_0_0 96 rfl rfl k
  exact funext fun a => Fin.ext (by
    match a with
    | ⟨0, _⟩ => exact outR0 _ _
    | ⟨1, _⟩ => exact (outR1 _ _).trans hk
    | ⟨2, _⟩ => exact outR2 _ _)

/-- The output payload is the second product, re-laid with a leading unit axis. -/
theorem pay1_eq (a : FVec Ideal S32x96x96 .bf16) (t : FVec Ideal S32x96x256 .bf16) (acc : FVec Ideal S32x96x256 .f32) :
    k0_pay1 (F := Ideal) a t acc
      = shapeCast S1x32x96x256 (matmul dot_S32x96x96_S32x96x256_S32x96x256_2_1_1_2_0_0 none a t acc) shapeCasts_S32x96x256_S1x32x96x256 := rfl

/-- The weights enter the second product unchanged: the change of format is the identity. -/
theorem pay4_apply (P0 P1 : Vec Ideal S1x32x4x96 .f32) (j : S32x96x96.Idx) :
    k0_pay4 (F := Ideal) P0 P1 j = k0_pay2 (F := Ideal) P0 P1 j := rfl

/-- The targets enter the second product re-laid as [32, 96, 256], unchanged. -/
theorem pay5_apply (P2 : Vec Ideal S1x32x96x256 .f32) (n : Fin 32) (s : Fin 96) (e : Fin 256) :
    k0_pay5 (F := Ideal) P2 (ix3 n s e) = P2 (ix4 (0 : Fin 1) n s e) := by
  show shapeCast S32x96x256 P2 shapeCasts_S1x32x96x256_S32x96x256 (ix3 n s e) = _
  exact shapeCast_apply P2 shapeCasts_S1x32x96x256_S32x96x256 (ix3 n s e) (ix4 (0 : Fin 1) n s e) (by
    rw [Shape.rowMajor_val_four, Shape.rowMajor_val_three]
    show ((0 * 32 + n.val) * 96 + s.val) * 256 + e.val = (n.val * 96 + s.val) * 256 + e.val
    omega)

/-- THE OUTPUT BLOCK at (n, p, e): the weights of row (n, p) against the targets' column `e`. -/
theorem pay1_apply (P0 P1 : Vec Ideal S1x32x4x96 .f32) (P2 : Vec Ideal S1x32x96x256 .f32) (n : Fin 32) (p : Fin 96)
    (e : Fin 256) :
    k0_pay1 (F := Ideal) (k0_pay4 P0 P1) (k0_pay5 P2) (constant S32x96x256 .f32 0x00000000#32) (ix4 (0 : Fin 1) n p e)
      = ∑ s : Fin 96, k0_pay2 (F := Ideal) P0 P1 (ix3 n p s) * P2 (ix4 (0 : Fin 1) n s e) := by
  rw [pay1_eq]
  refine (shapeCast_apply _ shapeCasts_S32x96x256_S1x32x96x256 (ix4 (0 : Fin 1) n p e) (ix3 n p e) (by
    rw [Shape.rowMajor_val_three, Shape.rowMajor_val_four]
    show (n.val * 96 + p.val) * 256 + e.val = ((0 * 32 + n.val) * 96 + p.val) * 256 + e.val
    omega)).trans ?_
  simp only [matmul]
  rw [Ideal.matmul_constant_zero_apply, ← Equiv.sum_comp (contrEquiv1 dot_S32x96x96_S32x96x256_S32x96x256_2_1_1_2_0_0 96 rfl rfl).symm]
  refine Finset.sum_congr rfl fun k _ => ?_
  rw [outL_idx, outR_idx, pay4_apply, pay5_apply]

end Cert.KerAttn

end
-- ==== Proof.RefRead.lean ====
/-
  The reference read at an index. With `x0` the encoder's time array [16, 96, 256, 4] (batch, source step, series,
  feature), `x2` the decoder's [16, 96, 256, 4] (batch, target step, series, feature) and `x1` the encoder's targets
  [16, 256, 96, 256] (batch, series, source step, channel):

  * the raw score at (b, n, p, s) is the cosine, in the contract-then-divide arrangement, of the decoder's time vector
    at (b, p, n) and the encoder's at (b, s, n) (`raw_apply`);
  * the row maximum the softmax subtracts is the maximum of that row of raw scores (`max_apply`: the reduce from
    `-∞`, and the `max` with a further `-∞` that changes nothing);
  * the attention weight at (b, n, p, s) is the softmax of the row at `s` (`attn_apply`, `attn_eq`);
  * the output at (b, n, p, e) is the sum over `s` of the weight at (b, n, p, s) times the target at (b, n, s, e)
    (`out_apply`).
-/
import proofs.«164457_j31696858644737_2_alg».proof.Proof.Gen.ReferenceIdeal.Read
import proofs.«164457_j31696858644737_2_alg».proof.Proof.CosineSoftmax
import Idealize.ShloMosaic.Lib.ValueIdx
import Idealize.ShloMosaic.PureOps.Ideal.Laws

noncomputable section

namespace Cert.RefAttn

open Idealize.ShloMosaic Idealize.ShloMosaic.ValueIdx Cert.ReferenceIdeal Cert.ReferenceIdeal.Gen Cert.ReferenceIdeal.Read
open Cert.CosAttn

variable (x0 x2 : (⟨S16x96x256x4, .f32⟩ : BufTy).Contents (Elt Ideal)) (x1 : (⟨S16x256x96x256, .f32⟩ : BufTy).Contents (Elt Ideal))

/-! ## Where each stage reads its operand, in coordinates -/

theorem lidx_eq (b : Fin 16) (n : Fin 256) (p s : Fin 96) (k : Fin 4) :
    idx_main_v1 (lidx_main_v2 (ix4 b n p s) k) = ix4 b p n k :=
  funext fun a => Fin.ext (by match a with | ⟨0, _⟩ => rfl | ⟨1, _⟩ => rfl | ⟨2, _⟩ => rfl | ⟨3, _⟩ => rfl)

theorem ridx_eq (b : Fin 16) (n : Fin 256) (p s : Fin 96) (k : Fin 4) :
    idx_main_v0 (ridx_main_v2 (ix4 b n p s) k) = ix4 b s n k :=
  funext fun a => Fin.ext (by match a with | ⟨0, _⟩ => rfl | ⟨1, _⟩ => rfl | ⟨2, _⟩ => rfl | ⟨3, _⟩ => rfl)

theorem normD_idx (b : Fin 16) (n : Fin 256) (p s : Fin 96) (k : Fin 4) :
    idx_main_v1 (idx_main_call1_v1 (idx_main_v5 (idx_main_v7 (ix4 b n p s))) k) = ix4 b p n k :=
  funext fun a => Fin.ext (by match a with | ⟨0, _⟩ => rfl | ⟨1, _⟩ => rfl | ⟨2, _⟩ => rfl | ⟨3, _⟩ => rfl)

theorem normE_idx (b : Fin 16) (n : Fin 256) (p s : Fin 96) (k : Fin 4) :
    idx_main_v0 (idx_main_call0_v1 (idx_main_v6 (idx_main_v8 (ix4 b n p s))) k) = ix4 b s n k :=
  funext fun a => Fin.ext (by match a with | ⟨0, _⟩ => rfl | ⟨1, _⟩ => rfl | ⟨2, _⟩ => rfl | ⟨3, _⟩ => rfl)

theorem row_idx (b : Fin 16) (n : Fin 256) (p s : Fin 96) :
    idx_main_v14 (idx_main_v15 (ix4 b n p s)) = ix3 b n p :=
  funext fun a => Fin.ext (by match a with | ⟨0, _⟩ => rfl | ⟨1, _⟩ => rfl | ⟨2, _⟩ => rfl)

theorem sum_idx (b : Fin 16) (n : Fin 256) (p s : Fin 96) (k : Fin 96) :
    idx_main_v18 (idx_main_v19 (idx_main_v20 (ix4 b n p s))) k = ix4 b n p k :=
  funext fun a => Fin.ext (by match a with | ⟨0, _⟩ => rfl | ⟨1, _⟩ => rfl | ⟨2, _⟩ => rfl | ⟨3, _⟩ => rfl)

theorem outL_idx (b : Fin 16) (n : Fin 256) (p : Fin 96) (e : Fin 256) (k : Fin 96) :
    lidx_main_v22 (ix4 b n p e) k = ix4 b n p k :=
  funext fun a => Fin.ext (by match a with | ⟨0, _⟩ => rfl | ⟨1, _⟩ => rfl | ⟨2, _⟩ => rfl | ⟨3, _⟩ => rfl)

theorem outR_idx (b : Fin 16) (n : Fin 256) (p : Fin 96) (e : Fin 256) (k : Fin 96) :
    ridx_main_v22 (ix4 b n p e) k = ix4 b n k e :=
  funext fun a => Fin.ext (by match a with | ⟨0, _⟩ => rfl | ⟨1, _⟩ => rfl | ⟨2, _⟩ => rfl | ⟨3, _⟩ => rfl)

/-! ## The raw score -/

/-- The raw score at (b, n, p, s): the contraction of the decoder's vector at (b, p, n) with the encoder's at (b, s, n),
    divided by the product of their lengths. -/
theorem raw_apply (b : Fin 16) (n : Fin 256) (p s : Fin 96) :
    val_main_v10 (F := Ideal) x0 x2 (ix4 b n p s)
      = cosPost (fun d => x2 (ix4 b p n d)) (fun d => x0 (ix4 b s n d)) := by
  rw [val_main_v10_apply, val_main_v2_apply, val_main_v9_apply, val_main_v7_apply, val_main_v5_apply, val_main_v4_apply,
    val_main_call1_v1_apply, val_main_v8_apply, val_main_v6_apply, val_main_v3_apply, val_main_call0_v1_apply]
  simp only [val_main_call1_v0_apply, val_main_call0_v0_apply, val_main_v1_apply, val_main_v0_apply,
    val_main_call0_cst_apply, val_main_call1_cst_apply, lidx_eq, ridx_eq, normD_idx, normE_idx,
    Ideal.hostDivf_def, Ideal.mulf_def, Ideal.hostUnary_sqrt_def, Ideal.ofBits_def, Ideal.ofBits_zero_f32, zero_add]
  rfl

/-! ## The row maximum -/

/-- The reduced index (b, n, p) with the source step `k` put back is (b, n, p, k). -/
theorem lift_eq (h : S16x256x96x96.Reduces [3] S16x256x96) (b : Fin 16) (n : Fin 256) (p : Fin 96)
    (k : Fin (S16x256x96x96.size 3)) : h.lift (ix3 b n p) k = ix4 b n p (⟨k.val, k.isLt⟩ : Fin 96) := by
  funext c; apply Fin.ext
  fin_cases c <;> rfl

/-- What the softmax subtracts at row (b, n, p) is the maximum of the row of raw scores. -/
theorem max_apply (b : Fin 16) (n : Fin 256) (p : Fin 96) :
    val_main_v13 (F := Ideal) x0 x2 (ix3 b n p)
      = rowMax (fun s' => val_main_v10 (F := Ideal) x0 x2 (ix4 b n p s')) := by
  have h : S16x256x96x96.Reduces [3] S16x256x96 := by decide
  rw [val_main_v13_apply, val_main_v12_apply, val_main_cst_0_apply]
  unfold val_main_v11
  rw [Host.reduce_eq_fold_single FloatOps.maximumf _ _ reducesTo_S16x256x96x96_S16x256x96_d3 h h_S_, val_main_cst_apply]
  have hf : (val_main_v10 (F := Ideal) x0 x2 ∘ h.lift (ix3 b n p))
      = fun s' : Fin 96 => val_main_v10 (F := Ideal) x0 x2 (ix4 b n p s') :=
    funext fun k => congrArg (val_main_v10 (F := Ideal) x0 x2) (lift_eq h b n p k)
  rw [hf]
  show max (Ideal.ofBits .f32 0xFF800000#32)
      ((Finset.univ : Finset (Fin 96)).fold max (Ideal.ofBits .f32 0xFF800000#32) _) = _
  rw [negInf_eq, max_eq_right bot_le]
  rfl

/-! ## The attention weights and the output -/

/-- The attention weight at (b, n, p, s) is the softmax of the row of raw scores at `s`. -/
theorem attn_apply (b : Fin 16) (n : Fin 256) (p s : Fin 96) :
    val_main_v21 (F := Ideal) x0 x2 (ix4 b n p s)
      = soft (fun s' => val_main_v10 (F := Ideal) x0 x2 (ix4 b n p s')) s := by
  rw [val_main_v21_apply, val_main_v20_apply, val_main_v19_apply, val_main_v18_apply]
  simp only [val_main_v17_apply, val_main_v16_apply, val_main_v15_apply, val_main_v14_apply, val_main_cst_1_apply,
    row_idx, sum_idx, max_apply, Ideal.hostDivf_def, Ideal.hostUnary_exp_def, Ideal.subf_def, Ideal.ofBits_def,
    Ideal.ofBits_zero_f32, zero_add]
  rfl

/-- The same with the raw scores spelt out: the softmax over `s` of the cosines of the decoder's vector at (b, p, n)
    with the encoder's vectors at (b, s, n). -/
theorem attn_eq (b : Fin 16) (n : Fin 256) (p s : Fin 96) :
    val_main_v21 (F := Ideal) x0 x2 (ix4 b n p s)
      = soft (fun s' => cosPost (fun d => x2 (ix4 b p n d)) (fun d => x0 (ix4 b s' n d))) s := by
  rw [attn_apply]
  simp only [raw_apply]

/-- The output at (b, n, p, e): the weights of row (b, n, p) against the targets' column `e`. -/
theorem out_apply (b : Fin 16) (n : Fin 256) (p : Fin 96) (e : Fin 256) :
    val_main_v22 (F := Ideal) x0 x1 x2 (ix4 b n p e)
      = ∑ k : Fin 96, val_main_v21 (F := Ideal) x0 x2 (ix4 b n p k) * x1 (ix4 b n k e) := by
  rw [val_main_v22_apply]
  simp only [outL_idx, outR_idx]

end Cert.RefAttn

end
-- ==== Proof.TimeOk.lean ====
/-
  What the precondition says of an array of time vectors [16, 96, 256, 4] (batch, step, series, feature): every entry is
  a real number, and every time vector has a positive squared length.
-/
import proofs.«164457_j31696858644737_2_alg».proof.Proof.CosineSoftmax
import Idealize.ShloMosaic.Lib.ValueIdx

noncomputable section

namespace Cert.CosAttn

open Idealize.ShloMosaic Idealize.ShloMosaic.ValueIdx

/-- Every entry of an array of time vectors is real, and every time vector has a positive squared length. -/
structure TimeOk (X : (⟨4, ![16, 96, 256, 4]⟩ : Shape).Idx → EReal) : Prop where
  real : ∀ i, ∃ r : ℝ, X i = (r : EReal)
  pos : ∀ (b : Fin 16) (s : Fin 96) (n : Fin 256), 0 < sq (fun d => X (ix4 b s n d))

end Cert.CosAttn

end
-- ==== Proof.BlockValue.lean ====
/-
  What one grid point computes, when its loaded blocks are pieces of the argument arrays.

  Fix a batch `b` and a map `N` from the 32 series of a block to the 256 series of the arrays. If the encoder's block
  holds `X0` at (b, s, N n, d), the decoder's block `X2` at (b, p, N n, d) and the targets' block `X1` at (b, N n, s, e),
  and both time arrays have real entries and time vectors of positive length (`TimeOk`),
  then the attention payload at (n, p, s) is the reference's attention at (b, N n, p, s) — the two cosine arrangements
  agree on real vectors of positive length, and the softmax is applied to equal rows — and the output payload at
  (n, p, e) is the reference's output at (b, N n, p, e), term by term of the sum over `s`.
-/
import proofs.«164457_j31696858644737_2_alg».proof.Proof.KernelPayload
import proofs.«164457_j31696858644737_2_alg».proof.Proof.RefRead
import proofs.«164457_j31696858644737_2_alg».proof.Proof.TimeOk

noncomputable section

namespace Cert.KerAttn

open Idealize.ShloMosaic Idealize.ShloMosaic.ValueIdx Cert.KernelIdeal Cert.KernelIdeal.Gen
open Cert.CosAttn

/-- The attention payload re-laid with its leading unit axis: at (0, n, p, s) it is the attention block at (n, p, s). -/
theorem pay3_apply (P0 P1 : Vec Ideal S1x32x4x96 .f32) (n : Fin 32) (p s : Fin 96) :
    k0_pay3 (F := Ideal) P0 P1 (ix4 (0 : Fin 1) n p s) = k0_pay2 (F := Ideal) P0 P1 (ix3 n p s) := by
  show shapeCast S1x32x96x96 (k0_pay2 (F := Ideal) P0 P1) shapeCasts_S32x96x96_S1x32x96x96 (ix4 (0 : Fin 1) n p s) = _
  exact shapeCast_apply _ shapeCasts_S32x96x96_S1x32x96x96 (ix4 (0 : Fin 1) n p s) (ix3 n p s) (by
    rw [Shape.rowMajor_val_three, Shape.rowMajor_val_four]
    show (n.val * 96 + p.val) * 96 + s.val = ((0 * 32 + n.val) * 96 + p.val) * 96 + s.val
    omega)

variable (X0 X2 : (⟨4, ![16, 96, 256, 4]⟩ : Shape).Idx → EReal) (X1 : (⟨4, ![16, 256, 96, 256]⟩ : Shape).Idx → EReal)

/-- THE ATTENTION BLOCK of a point whose blocks are pieces of the arrays is the reference's attention there. -/
theorem attn_block (h0 : TimeOk X0) (h2 : TimeOk X2) (b : Fin 16) (N : Fin 32 → Fin 256)
    (P0 P1 : Vec Ideal S1x32x4x96 .f32)
    (e0 : ∀ (n : Fin 32) (d : Fin 4) (s : Fin 96), P0 (ix4 (0 : Fin 1) n d s) = X0 (ix4 b s (N n) d))
    (e1 : ∀ (n : Fin 32) (d : Fin 4) (p : Fin 96), P1 (ix4 (0 : Fin 1) n d p) = X2 (ix4 b p (N n) d))
    (n : Fin 32) (p s : Fin 96) :
    k0_pay2 (F := Ideal) P0 P1 (ix3 n p s)
      = Cert.ReferenceIdeal.Read.val_main_v21 (F := Ideal) X0 X2 (ix4 b (N n) p s) := by
  rw [pay2_apply, Cert.RefAttn.attn_eq]
  simp only [e0, e1]
  exact congrArg (fun r => soft r s) (funext fun s' =>
    cosPre_eq_cosPost _ _ (fun d => h2.real _) (fun d => h0.real _) (h2.pos b p (N n)) (h0.pos b s' (N n)))

/-- THE OUTPUT BLOCK of such a point is the reference's output there. -/
theorem out_block (h0 : TimeOk X0) (h2 : TimeOk X2) (b : Fin 16) (N : Fin 32 → Fin 256)
    (P0 P1 : Vec Ideal S1x32x4x96 .f32) (P2 : Vec Ideal S1x32x96x256 .f32)
    (e0 : ∀ (n : Fin 32) (d : Fin 4) (s : Fin 96), P0 (ix4 (0 : Fin 1) n d s) = X0 (ix4 b s (N n) d))
    (e1 : ∀ (n : Fin 32) (d : Fin 4) (p : Fin 96), P1 (ix4 (0 : Fin 1) n d p) = X2 (ix4 b p (N n) d))
    (e2 : ∀ (n : Fin 32) (s : Fin 96) (e : Fin 256), P2 (ix4 (0 : Fin 1) n s e) = X1 (ix4 b (N n) s e))
    (n : Fin 32) (p : Fin 96) (e : Fin 256) :
    k0_pay1 (F := Ideal) (k0_pay4 P0 P1) (k0_pay5 P2) (constant S32x96x256 .f32 0x00000000#32) (ix4 (0 : Fin 1) n p e)
      = Cert.ReferenceIdeal.Read.val_main_v22 (F := Ideal) X0 X1 X2 (ix4 b (N n) p e) := by
  rw [pay1_apply, Cert.RefAttn.out_apply]
  refine Finset.sum_congr rfl fun k _ => ?_
  rw [attn_block X0 X2 h0 h2 b N P0 P1 e0 e1 n p k, e2]

end Cert.KerAttn

end
-- ==== Proof.BlockReads.lean ====
/-
  Where the kernel's blocks sit in the arrays.

  The grid has 16 × 8 points. At a point every window's block index is (b, k, 0, 0) with `b` the batch and `k` the chunk
  of 32 series (`idx_facts`, decided over the 128 points; `idx_onto`: every (b, k) is some point's). So a block's
  coordinate (0, n, ·, ·) is the array's (b, 32 k + n, ·, ·): `bOf t`, `nOf t n`.

  The two time windows stage arrays the host wrote before the call: the encoder's and the decoder's time arrays
  [16, 96, 256, 4] transposed to [16, 256, 4, 96] (batch, series, feature, step) (`V_v0_apply`, `V_v1_apply`). Hence the
  encoder's block at (0, n, d, s) is the encoder's time array at (b, s, 32 k + n, d) (`blk0_apply`), the decoder's likewise
  (`blk1_apply`), the targets' block at (0, n, s, e) is the targets at (b, 32 k + n, s, e) (`blk2_apply`), and an element
  (0, n, p, ·) of either output block lands at (b, 32 k + n, p, ·) (`emb3_eq`, `emb4_eq`).
-/
import proofs.«164457_j31696858644737_2_alg».proof.Proof.Gen.KernelIdeal.Value
import Idealize.ShloMosaic.Lib.ValueIdx
import Idealize.ShloMosaic.Lib.Pipeline.Value
import Idealize.ShloMosaic.Lib.StableHlo.Run
import Idealize.ShloMosaic.Lib.Tactic

noncomputable section

namespace Cert.KerAttn

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem hz4 : (![0, 0, 0, 0] : Fin 4 → Nat) = fun _ => 0 := funext fun a => by fin_cases a <;> rfl

/-- The printed index maps, decided over the grid: every window's block index at a point is (b, k, 0, 0) for the same
    batch `b < 16` and chunk `k < 8`. -/
theorem idx_facts : ∀ t : Fin cfg0.N,
    win0_3.index t (0 : Fin 4) < 16 ∧ win0_3.index t (1 : Fin 4) < 8
    ∧ win0_3.index t (2 : Fin 4) = 0 ∧ win0_3.index t (3 : Fin 4) = 0
    ∧ win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_4.index t (0 : Fin 4) = win0_3.index t (0 : Fin 4) ∧ win0_4.index t (1 : Fin 4) = win0_3.index t (1 : Fin 4)
    ∧ win0_4.index t (2 : Fin 4) = 0 ∧ win0_4.index t (3 : Fin 4) = 0 :=
  (by decide +kernel : ∀ t : Fin grid0.N, _)

/-- Every batch and chunk is some point's. -/
theorem idx_onto : ∀ (q0 : Fin 16) (q1 : Fin 8), ∃ t : Fin cfg0.N,
    win0_3.index t (0 : Fin 4) = q0.val ∧ win0_3.index t (1 : Fin 4) = q1.val :=
  (by decide +kernel : ∀ (q0 : Fin 16) (q1 : Fin 8), ∃ t : Fin grid0.N,
    win0_3.index t (0 : Fin 4) = q0.val ∧ win0_3.index t (1 : Fin 4) = q1.val)

/-- The batch of point `t`. -/
def bOf (t : Fin cfg0.N) : Fin 16 := ⟨win0_3.index t (0 : Fin 4), (idx_facts t).1⟩

/-- The series, among the arrays' 256, of the block's series `n` at point `t`. -/
def nOf (t : Fin cfg0.N) (n : Fin 32) : Fin 256 :=
  ⟨win0_3.index t (1 : Fin 4) * 32 + n.val, by have := (idx_facts t).2.1; have := n.isLt; omega⟩

theorem bOf_val (t : Fin cfg0.N) : (bOf t).val = win0_3.index t (0 : Fin 4) := rfl
theorem nOf_val (t : Fin cfg0.N) (n : Fin 32) : (nOf t n).val = win0_3.index t (1 : Fin 4) * 32 + n.val := rfl

/-! ## The arrays the host wrote before the call -/

/-- The encoder's staged array at (b, n, d, s) is the encoder's time array at (b, s, n, d). -/
theorem V_v0_apply (c : Dev nD) (b : Fin 16) (n : Fin 256) (d : Fin 4) (s : Fin 96) :
    (V m c main_v0 : S16x256x4x96.Idx → EReal) (ix4 b n d s)
      = (m ((c : Thread nD τ).loc main_arg0) : S16x96x256x4.Idx → EReal) (ix4 b s n d) := by
  have e : (V m c main_v0 : S16x256x4x96.Idx → EReal)
      = transpose S16x256x4x96 [0, 2, 3, 1] (m ((c : Thread nD τ).loc main_arg0)) transposes_S16x96x256x4_S16x256x4x96_0_2_3_1 := by
    dsimp only [V, hostOps0]; after_results
  rw [e]
  exact transpose_apply [0, 2, 3, 1] _ transposes_S16x96x256x4_S16x256x4x96_0_2_3_1 (ix4 b n d s) (ix4 b s n d) (fun a => by
    match a with | ⟨0, _⟩ => rfl | ⟨1, _⟩ => rfl | ⟨2, _⟩ => rfl | ⟨3, _⟩ => rfl)

/-- The decoder's staged array at (b, n, d, p) is the decoder's time array at (b, p, n, d). -/
theorem V_v1_apply (c : Dev nD) (b : Fin 16) (n : Fin 256) (d : Fin 4) (p : Fin 96) :
    (V m c main_v1 : S16x256x4x96.Idx → EReal) (ix4 b n d p)
      = (m ((c : Thread nD τ).loc main_arg2) : S16x96x256x4.Idx → EReal) (ix4 b p n d) := by
  have e : (V m c main_v1 : S16x256x4x96.Idx → EReal)
      = transpose S16x256x4x96 [0, 2, 3, 1] (m ((c : Thread nD τ).loc main_arg2)) transposes_S16x96x256x4_S16x256x4x96_0_2_3_1 := by
    dsimp only [V, hostOps0]; after_results
  rw [e]
  exact transpose_apply [0, 2, 3, 1] _ transposes_S16x96x256x4_S16x256x4x96_0_2_3_1 (ix4 b n d p) (ix4 b p n d) (fun a => by
    match a with | ⟨0, _⟩ => rfl | ⟨1, _⟩ => rfl | ⟨2, _⟩ => rfl | ⟨3, _⟩ => rfl)

/-! ## The input blocks -/

/-- The encoder's block at point `t`. -/
theorem blk0_apply (c : Dev nD) (t : Fin cfg0.N) (n : Fin 32) (d : Fin 4) (s : Fin 96) :
    (iblk m c 0 t : Vec Ideal S1x32x4x96 .f32) (ix4 (0 : Fin 1) n d s)
      = (m ((c : Thread nD τ).loc main_arg0) : S16x96x256x4.Idx → EReal) (ix4 (bOf t) s (nOf t n) d) := by
  obtain ⟨-, -, -, -, h0, h1, h2, h3, -⟩ := idx_facts t
  unfold iblk
  rw [View.read_apply]
  show (V m c main_v0 : S16x256x4x96.Idx → EReal) _ = _
  refine Eq.trans (congrArg (V m c main_v0 : S16x256x4x96.Idx → EReal) ?_) (V_v0_apply m c (bOf t) (nOf t n) d s)
  funext a; apply Fin.ext
  match a with
  | ⟨0, _⟩ => show win0_0.index t (0 : Fin 4) * 1 + 1 * 0 = win0_3.index t (0 : Fin 4); omega
  | ⟨1, _⟩ => show win0_0.index t (1 : Fin 4) * 32 + 1 * n.val = win0_3.index t (1 : Fin 4) * 32 + n.val; omega
  | ⟨2, _⟩ => show win0_0.index t (2 : Fin 4) * 4 + 1 * d.val = d.val; omega
  | ⟨3, _⟩ => show win0_0.index t (3 : Fin 4) * 96 + 1 * s.val = s.val; omega

/-- The decoder's block at point `t`. -/
theorem blk1_apply (c : Dev nD) (t : Fin cfg0.N) (n : Fin 32) (d : Fin 4) (p : Fin 96) :
    (iblk m c 1 t : Vec Ideal S1x32x4x96 .f32) (ix4 (0 : Fin 1) n d p)
      = (m ((c : Thread nD τ).loc main_arg2) : S16x96x256x4.Idx → EReal) (ix4 (bOf t) p (nOf t n) d) := by
  obtain ⟨-, -, -, -, -, -, -, -, h0, h1, h2, h3, -⟩ := idx_facts t
  unfold iblk
  rw [View.read_apply]
  show (V m c main_v1 : S16x256x4x96.Idx → EReal) _ = _
  refine Eq.trans (congrArg (V m c main_v1 : S16x256x4x96.Idx → EReal) ?_) (V_v1_apply m c (bOf t) (nOf t n) d p)
  funext a; apply Fin.ext
  match a with
  | ⟨0, _⟩ => show win0_1.index t (0 : Fin 4) * 1 + 1 * 0 = win0_3.index t (0 : Fin 4); omega
  | ⟨1, _⟩ => show win0_1.index t (1 : Fin 4) * 32 + 1 * n.val = win0_3.index t (1 : Fin 4) * 32 + n.val; omega
  | ⟨2, _⟩ => show win0_1.index t (2 : Fin 4) * 4 + 1 * d.val = d.val; omega
  | ⟨3, _⟩ => show win0_1.index t (3 : Fin 4) * 96 + 1 * p.val = p.val; omega

/-- The targets' block at point `t`. -/
theorem blk2_apply (c : Dev nD) (t : Fin cfg0.N) (n : Fin 32) (s : Fin 96) (e : Fin 256) :
    (iblk m c 2 t : Vec Ideal S1x32x96x256 .f32) (ix4 (0 : Fin 1) n s e)
      = (m ((c : Thread nD τ).loc main_arg1) : S16x256x96x256.Idx → EReal) (ix4 (bOf t) (nOf t n) s e) := by
  obtain ⟨-, -, -, -, -, -, -, -, -, -, -, -, h0, h1, h2, h3, -⟩ := idx_facts t
  unfold iblk
  rw [View.read_apply]
  show (V m c main_arg1 : S16x256x96x256.Idx → EReal) _ = _
  rw [V_main_arg1]
  refine congrArg (m ((c : Thread nD τ).loc main_arg1) : S16x256x96x256.Idx → EReal) ?_
  funext a; apply Fin.ext
  match a with
  | ⟨0, _⟩ => show win0_2.index t (0 : Fin 4) * 1 + 1 * 0 = win0_3.index t (0 : Fin 4); omega
  | ⟨1, _⟩ => show win0_2.index t (1 : Fin 4) * 32 + 1 * n.val = win0_3.index t (1 : Fin 4) * 32 + n.val; omega
  | ⟨2, _⟩ => show win0_2.index t (2 : Fin 4) * 96 + 1 * s.val = s.val; omega
  | ⟨3, _⟩ => show win0_2.index t (3 : Fin 4) * 256 + 1 * e.val = e.val; omega

/-! ## Where the output blocks land -/

/-- An element of the attention block at point `t` lands at (b, 32 k + n, p, s). -/
theorem emb3_eq (t : Fin cfg0.N) (n : Fin 32) (p s : Fin 96) :
    ((cfg0.win 3).blk t).view.emb (ix4 (0 : Fin 1) n p s) = (ix4 (bOf t) (nOf t n) p s : S16x256x96x96.Idx) := by
  obtain ⟨-, -, h2, h3, -⟩ := idx_facts t
  funext a; apply Fin.ext
  match a with
  | ⟨0, _⟩ => show win0_3.index t (0 : Fin 4) * 1 + 1 * 0 = win0_3.index t (0 : Fin 4); omega
  | ⟨1, _⟩ => show win0_3.index t (1 : Fin 4) * 32 + 1 * n.val = win0_3.index t (1 : Fin 4) * 32 + n.val; omega
  | ⟨2, _⟩ => show win0_3.index t (2 : Fin 4) * 96 + 1 * p.val = p.val; omega
  | ⟨3, _⟩ => show win0_3.index t (3 : Fin 4) * 96 + 1 * s.val = s.val; omega

/-- An element of the output block at point `t` lands at (b, 32 k + n, p, e). -/
theorem emb4_eq (t : Fin cfg0.N) (n : Fin 32) (p : Fin 96) (e : Fin 256) :
    ((cfg0.win 4).blk t).view.emb (ix4 (0 : Fin 1) n p e) = (ix4 (bOf t) (nOf t n) p e : S16x256x96x256.Idx) := by
  obtain ⟨-, -, -, -, -, -, -, -, -, -, -, -, -, -, -, -, h0, h1, h2, h3⟩ := idx_facts t
  funext a; apply Fin.ext
  match a with
  | ⟨0, _⟩ => show win0_4.index t (0 : Fin 4) * 1 + 1 * 0 = win0_3.index t (0 : Fin 4); omega
  | ⟨1, _⟩ => show win0_4.index t (1 : Fin 4) * 32 + 1 * n.val = win0_3.index t (1 : Fin 4) * 32 + n.val; omega
  | ⟨2, _⟩ => show win0_4.index t (2 : Fin 4) * 96 + 1 * p.val = p.val; omega
  | ⟨3, _⟩ => show win0_4.index t (3 : Fin 4) * 256 + 1 * e.val = e.val; omega

end Cert.KerAttn

end
-- ==== Proof.Final.lean ====
/-
  The kernel's two result arrays after the run.

  `attnOf m c` and `outOf m c` are the reference's attention and output as functions of the kernel's argument arrays.
  What point `t` writes back to the attention array is block `t` of `attnOf` (`flushed3_eq`): the block's element
  (0, n, p, s) is the attention payload at (n, p, s), its input blocks are pieces of the arrays, and the element lands at
  (b, 32 k + n, p, s). Likewise the output (`flushed4_eq`). The blocks tile each array — the point of batch `i 0` and chunk
  `i 1 / 32` holds index `i` (`cover3`, `cover4`) — so the arrays end at `attnOf` and `outOf` (`final3`, `final4`), and
  the run is the generated run with the arrays so named (`run`). The two facts about the time arrays (`TimeOk`) are
  hypotheses here; the precondition supplies them.
-/
import proofs.«164457_j31696858644737_2_alg».proof.Proof.BlockValue
import proofs.«164457_j31696858644737_2_alg».proof.Proof.BlockReads

noncomputable section

namespace Cert.KerAttn

open Idealize.ShloMosaic Idealize.ShloMosaic.TcCoe Idealize.SL.Sem Idealize.ShloMosaic.ValueIdx
open Idealize.ShloMosaic.Pipeline (Dat)
open Cert.KernelIdeal Cert.KernelIdeal.Gen Cert.CosAttn

variable (m : (ℓ : Loc nD τ sig) → Buf (Elt Ideal) ℓ) (ρ : Dev nD → PrngReg)

/-- The reference's attention as a function of the kernel's time arrays. -/
def attnOf (c : Dev nD) : Buf (Elt Ideal) ((c : Thread nD τ).loc main_v2_0) :=
  Cert.ReferenceIdeal.Read.val_main_v21 (F := Ideal) (m ((c : Thread nD τ).loc main_arg0)) (m ((c : Thread nD τ).loc main_arg2))

/-- The reference's output as a function of the kernel's three arrays. -/
def outOf (c : Dev nD) : Buf (Elt Ideal) ((c : Thread nD τ).loc main_v2_1) :=
  Cert.ReferenceIdeal.Read.val_main_v22 (F := Ideal) (m ((c : Thread nD τ).loc main_arg0)) (m ((c : Thread nD τ).loc main_arg1))
    (m ((c : Thread nD τ).loc main_arg2))

/-! ## What a point writes back -/

/-- An element of the attention payload at point `t` is the reference's attention where the element lands. -/
theorem attn_point (c : Dev nD) (h0 : TimeOk (m ((c : Thread nD τ).loc main_arg0)))
    (h2 : TimeOk (m ((c : Thread nD τ).loc main_arg2))) (t : Fin cfg0.N) (y : S1x32x96x96.Idx) :
    k0_pay3 (F := Ideal) (iblk m c 0 t) (iblk m c 1 t) y = attnOf m c (((cfg0.win 3).blk t).view.emb y) := by
  obtain ⟨y0, n, p, s, rfl⟩ : ∃ (y0 : Fin 1) (n : Fin 32) (p s : Fin 96), y = ix4 y0 n p s :=
    ⟨y 0, y 1, y 2, y 3, eq_ix4 y⟩
  obtain rfl : y0 = 0 := Subsingleton.elim _ _
  rw [emb3_eq]
  refine (pay3_apply (iblk m c 0 t) (iblk m c 1 t) n p s).trans ?_
  exact attn_block _ _ h0 h2 (bOf t) (nOf t) (iblk m c 0 t) (iblk m c 1 t)
    (fun n d s => blk0_apply m c t n d s) (fun n d p => blk1_apply m c t n d p) n p s

/-- An element of the output payload at point `t` is the reference's output where the element lands. -/
theorem out_point (c : Dev nD) (h0 : TimeOk (m ((c : Thread nD τ).loc main_arg0)))
    (h2 : TimeOk (m ((c : Thread nD τ).loc main_arg2))) (t : Fin cfg0.N) (y : S1x32x96x256.Idx) :
    k0_pay1 (F := Ideal) (k0_pay4 (iblk m c 0 t) (iblk m c 1 t)) (k0_pay5 (iblk m c 2 t))
        (constant S32x96x256 .f32 0x00000000#32) y
      = outOf m c (((cfg0.win 4).blk t).view.emb y) := by
  obtain ⟨y0, n, p, e, rfl⟩ : ∃ (y0 : Fin 1) (n : Fin 32) (p : Fin 96) (e : Fin 256), y = ix4 y0 n p e :=
    ⟨y 0, y 1, y 2, y 3, eq_ix4 y⟩
  obtain rfl : y0 = 0 := Subsingleton.elim _ _
  rw [emb4_eq]
  exact out_block _ _ _ h0 h2 (bOf t) (nOf t) (iblk m c 0 t) (iblk m c 1 t) (iblk m c 2 t)
    (fun n d s => blk0_apply m c t n d s) (fun n d p => blk1_apply m c t n d p) (fun n s e => blk2_apply m c t n s e) n p e

/-- WHAT POINT `t` WRITES BACK to the attention array is block `t` of the reference's attention. -/
theorem flushed3_eq (c : Dev nD) (h0 : TimeOk (m ((c : Thread nD τ).loc main_arg0)))
    (h2 : TimeOk (m ((c : Thread nD τ).loc main_arg2))) (t : Fin cfg0.N) :
    (dats m 0 c).flushed 3 t = ((cfg0.win 3).blk t).view.read (Elt Ideal) (attnOf m c) := by
  rw [Cert.KernelIdeal.Value.flushed3]
  unfold out0_3
  rw [View.canon_unit_zero hz4]
  simp only [View.ld_unit_zero (S := S1x32x4x96) hz4]
  funext y
  exact attn_point m c h0 h2 t y

/-- WHAT POINT `t` WRITES BACK to the output array is block `t` of the reference's output. -/
theorem flushed4_eq (c : Dev nD) (h0 : TimeOk (m ((c : Thread nD τ).loc main_arg0)))
    (h2 : TimeOk (m ((c : Thread nD τ).loc main_arg2))) (t : Fin cfg0.N) :
    (dats m 0 c).flushed 4 t = ((cfg0.win 4).blk t).view.read (Elt Ideal) (outOf m c) := by
  rw [Cert.KernelIdeal.Value.flushed4]
  unfold out0_4
  rw [View.canon_unit_zero hz4]
  simp only [View.ld_unit_zero (S := S1x32x4x96) hz4, View.ld_unit_zero (S := S1x32x96x256) hz4]
  funext y
  exact out_point m c h0 h2 t y

/-! ## The blocks tile the arrays -/

/-- An index of the attention array is in point `t`'s block iff each coordinate is in the block's range on its axis. -/
theorem mem_blk3 (t : Fin cfg0.N) (i : S16x256x96x96.Idx) :
    i ∈ ((cfg0.win 3).blk t).view.set ↔ ∀ a : Fin 4, win0_3.index t a * S1x32x96x96.size a ≤ (i a).val
      ∧ (i a).val < win0_3.index t a * S1x32x96x96.size a + S1x32x96x96.size a := by
  show i ∈ ((View.whole main_v2_0).slice (win0_3.rect t)).set ↔ _
  rw [View.set_slice_whole, Rect.mem_set_unit]
  exact Iff.rfl

/-- The same for the output array. -/
theorem mem_blk4 (t : Fin cfg0.N) (i : S16x256x96x256.Idx) :
    i ∈ ((cfg0.win 4).blk t).view.set ↔ ∀ a : Fin 4, win0_4.index t a * S1x32x96x256.size a ≤ (i a).val
      ∧ (i a).val < win0_4.index t a * S1x32x96x256.size a + S1x32x96x256.size a := by
  show i ∈ ((View.whole main_v2_1).slice (win0_4.rect t)).set ↔ _
  rw [View.set_slice_whole, Rect.mem_set_unit]
  exact Iff.rfl

/-- Every index of the attention array is in the block of the point of its batch and of its series' chunk. -/
theorem cover3 (i : S16x256x96x96.Idx) :
    ∃ t : Fin cfg0.N, (cfg0.win 3).flush t = true ∧ i ∈ ((cfg0.win 3).blk t).view.set := by
  have hi0 : (i 0).val < 16 := (i 0).isLt
  have hi1 : (i 1).val < 256 := (i 1).isLt
  have hi2 : (i 2).val < 96 := (i 2).isLt
  have hi3 : (i 3).val < 96 := (i 3).isLt
  obtain ⟨t, q0, q1⟩ := idx_onto ⟨(i 0).val, hi0⟩ ⟨(i 1).val / 32, by omega⟩
  have q0' : win0_3.index t (0 : Fin 4) = (i 0).val := q0
  have q1' : win0_3.index t (1 : Fin 4) = (i 1).val / 32 := q1
  obtain ⟨-, -, q2, q3, -⟩ := idx_facts t
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 32 ≤ (i 1).val ∧ (i 1).val < win0_3.index t (1 : Fin 4) * 32 + 32; omega
  | ⟨2, _⟩ => show win0_3.index t (2 : Fin 4) * 96 ≤ (i 2).val ∧ (i 2).val < win0_3.index t (2 : Fin 4) * 96 + 96; omega
  | ⟨3, _⟩ => show win0_3.index t (3 : Fin 4) * 96 ≤ (i 3).val ∧ (i 3).val < win0_3.index t (3 : Fin 4) * 96 + 96; omega

/-- Every index of the output array likewise. -/
theorem cover4 (i : S16x256x96x256.Idx) :
    ∃ t : Fin cfg0.N, (cfg0.win 4).flush t = true ∧ i ∈ ((cfg0.win 4).blk t).view.set := by
  have hi0 : (i 0).val < 16 := (i 0).isLt
  have hi1 : (i 1).val < 256 := (i 1).isLt
  have hi2 : (i 2).val < 96 := (i 2).isLt
  have hi3 : (i 3).val < 256 := (i 3).isLt
  obtain ⟨t, q0, q1⟩ := idx_onto ⟨(i 0).val, hi0⟩ ⟨(i 1).val / 32, by omega⟩
  have q0' : win0_3.index t (0 : Fin 4) = (i 0).val := q0
  have q1' : win0_3.index t (1 : Fin 4) = (i 1).val / 32 := q1
  obtain ⟨-, -, -, -, -, -, -, -, -, -, -, -, -, -, -, -, e0, e1, e2, e3⟩ := idx_facts t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 32 ≤ (i 1).val ∧ (i 1).val < win0_4.index t (1 : Fin 4) * 32 + 32; omega
  | ⟨2, _⟩ => show win0_4.index t (2 : Fin 4) * 96 ≤ (i 2).val ∧ (i 2).val < win0_4.index t (2 : Fin 4) * 96 + 96; omega
  | ⟨3, _⟩ => show win0_4.index t (3 : Fin 4) * 256 ≤ (i 3).val ∧ (i 3).val < win0_4.index t (3 : Fin 4) * 256 + 256; omega

/-! ## The arrays after the run, and the run -/

/-- The attention array ends at the reference's attention of the kernel's arguments. -/
theorem final3 (c : Dev nD) (h0 : TimeOk (m ((c : Thread nD τ).loc main_arg0)))
    (h2 : TimeOk (m ((c : Thread nD τ).loc main_arg2))) : (dats m 0 c).arrAt 3 cfg0.N = attnOf m c :=
  (dats m 0 c).arrAt_eq_of_cover 3 (attnOf m c) (fun t _ => flushed3_eq m c h0 h2 t) cover3

/-- The output array ends at the reference's output of the kernel's arguments. -/
theorem final4 (c : Dev nD) (h0 : TimeOk (m ((c : Thread nD τ).loc main_arg0)))
    (h2 : TimeOk (m ((c : Thread nD τ).loc main_arg2))) : (dats m 0 c).arrAt 4 cfg0.N = outOf m c :=
  (dats m 0 c).arrAt_eq_of_cover 4 (outOf m c) (fun t _ => flushed4_eq m c h0 h2 t) cover4

/-- The kernel's run, read: each result array at the reference's function of the arguments, the arguments unchanged. -/
theorem run (hok : ∀ c : Dev nD, TimeOk (m ((c : Thread nD τ).loc main_arg0)) ∧ TimeOk (m ((c : Thread nD τ).loc main_arg2))) :
    θ_run defs (onTc (τ := τ) (main (F := Ideal))) ⟨m, fun _ => 0, ρ⟩ fun r => ∀ c : Dev nD,
      r.2.mem ((c : Thread nD τ).loc main_v2_0) = attnOf m c
      ∧ r.2.mem ((c : Thread nD τ).loc main_v2_1) = outOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c (hok c).1 (hok c).2),
      (h c).2.1.trans (final4 m c (hok c).1 (hok c).2), (h c).2.2⟩)
    (Cert.KernelIdeal.Value.run_blocks m ρ)

end Cert.KerAttn

end
-- ==== Proof.PreDecode.lean ====
/-
  The precondition, read back. It is the conjunction of five `jnp.all`s: every entry of each of the three arrays has
  an absolute value strictly below `+∞`, and for the encoder's and the decoder's time arrays the sum over the four
  features of the squares is strictly positive at every (batch, step, series). From it: every entry of the two time
  arrays is a real number, and every time vector has a positive squared length (`timeOk_of_pre`).
-/
import proofs.«164457_j31696858644737_2_alg».proof.Pre_finite_inputs
import proofs.«164457_j31696858644737_2_alg».proof.Proof.Gen.Pre_finite_inputs
import proofs.«164457_j31696858644737_2_alg».proof.Proof.TimeOk
import proofs.«164457_j31696858644737_2_alg».proof.Proof.LibERealFinite
import Idealize.ShloMosaic.Lib.ReduceAll
import Idealize.ShloMosaic.Lib.ValueIdx
import Idealize.ShloMosaic.PureOps.Ideal.Laws

noncomputable section

namespace Cert.PreDecode

open Idealize.ShloMosaic Idealize.ShloMosaic.ValueIdx Cert.Pre_finite_inputs Cert.CosAttn

variable [Cert.Pre_finite_inputs.Facts]
open Cert.Pre_finite_inputs.Facts

/-- The rank-0 shape has one index. -/
instance : Subsingleton S_.Idx := ⟨fun a b => funext fun d => d.elim0⟩

/-- The host's sum of squares over the features, at (b, s, n), is the squared length of the time vector there. -/
theorem sumsq_apply (x : FVec Ideal S16x96x256x4 .f32) (b : Fin 16) (s : Fin 96) (n : Fin 256) :
    Host.reduceAdd (mulf x x) (constant (F := Ideal) S_ .f32 0x00000000#32) reducesTo_S16x96x256x4_S16x96x256_d3 h_S_ (ix3 b s n)
      = CosAttn.sq (fun d => x (ix4 b s n d)) := by
  have h : S16x96x256x4.Reduces [3] S16x96x256 := by decide
  simp only [Host.reduceAdd, Ideal.hostReduceAdd_def]
  rw [Ideal.hostReduceAdd_single reducesTo_S16x96x256x4_S16x96x256_d3 h]
  show Ideal.ofBits .f32 0x00000000#32 + _ = _
  rw [Ideal.ofBits_zero_f32, zero_add]
  unfold CosAttn.sq
  refine Finset.sum_congr rfl fun k _ => ?_
  have e : h.lift (ix3 b s n) k = ix4 b s n (⟨k.val, k.isLt⟩ : Fin 4) :=
    funext fun a => Fin.ext (by match a with | ⟨0, _⟩ => rfl | ⟨1, _⟩ => rfl | ⟨2, _⟩ => rfl | ⟨3, _⟩ => rfl)
  show x (h.lift (ix3 b s n) k) * x (h.lift (ix3 b s n) k) = _
  rw [e]
  rfl

/-- A decided comparison whose word is 1 holds. -/
theorem of_ofBool_decide {P : Prop} [Decidable P] (h : BitVec.ofBool (decide P) = 1#1) : P := by
  by_cases hp : P
  · exact hp
  · rw [decide_eq_false hp] at h
    exact absurd h (by decide)

/-- From the precondition: both time arrays have real entries and time vectors of positive squared length. -/
theorem timeOk_of_pre (x0 : FVec Ideal S16x96x256x4 .f32) (x1 : FVec Ideal S16x256x96x256 .f32)
    (x2 : FVec Ideal S16x96x256x4 .f32) (h : fn (F := Ideal) x0 x1 x2 = fun _ => 1#1) : TimeOk x0 ∧ TimeOk x2 := by
  have h0 := congrFun h ix0
  dsimp only [fn, fn_part1] at h0
  obtain ⟨h19, h24⟩ := IntOp.andi_eq_one.mp h0
  obtain ⟨h13, h18⟩ := IntOp.andi_eq_one.mp h19
  obtain ⟨h8, h12⟩ := IntOp.andi_eq_one.mp h13
  obtain ⟨h3, h7⟩ := IntOp.andi_eq_one.mp h8
  have r0 : ∀ i, ∃ r : ℝ, x0 i = (r : EReal) := fun i =>
    LibERealFinite.real_of_abs_lt (x0 i) (Host.reduce_andi_all _ _ _ _ ix0 h3 i)
  have r2 : ∀ i, ∃ r : ℝ, x2 i = (r : EReal) := fun i =>
    LibERealFinite.real_of_abs_lt (x2 i) (Host.reduce_andi_all _ _ _ _ ix0 h12 i)
  have p0 : ∀ (b : Fin 16) (s : Fin 96) (n : Fin 256), 0 < CosAttn.sq (fun d => x0 (ix4 b s n d)) := fun b s n => by
    have e : Ideal.cmp .ogt (Host.reduceAdd (mulf x0 x0) (constant (F := Ideal) S_ .f32 0x00000000#32)
        reducesTo_S16x96x256x4_S16x96x256_d3 h_S_ (ix3 b s n)) (Ideal.ofBits .f32 0x00000000#32) = 1#1 :=
      Host.reduce_andi_all _ _ _ _ ix0 h18 (ix3 b s n)
    rw [sumsq_apply, Ideal.ofBits_zero_f32] at e
    exact of_ofBool_decide e
  have p2 : ∀ (b : Fin 16) (s : Fin 96) (n : Fin 256), 0 < CosAttn.sq (fun d => x2 (ix4 b s n d)) := fun b s n => by
    have e : Ideal.cmp .ogt (Host.reduceAdd (mulf x2 x2) (constant (F := Ideal) S_ .f32 0x00000000#32)
        reducesTo_S16x96x256x4_S16x96x256_d3 h_S_ (ix3 b s n)) (Ideal.ofBits .f32 0x00000000#32) = 1#1 :=
      Host.reduce_andi_all _ _ _ _ ix0 h24 (ix3 b s n)
    rw [sumsq_apply, Ideal.ofBits_zero_f32] at e
    exact of_ofBool_decide e
  exact ⟨⟨r0, p0⟩, ⟨r2, p2⟩⟩

end Cert.PreDecode

end
-- ==== Proof.lean ====
/-
  A cosine-similarity attention over time features: the kernel against its jnp reference, as extended reals.

  For each batch `b` and series `n` the score of target step `p` against source step `s` is the cosine of the decoder's
  time vector at (b, p, n) and the encoder's at (b, s, n), four features each; the attention weights are the softmax of
  each row of scores over `s`, and the output is the weights applied to the encoder's targets. The kernel divides each
  time vector by its length and then contracts; the reference contracts and then divides by the product of the two
  lengths. On real vectors of positive length these are one real number; at a vector of length zero both sides are
  junk values that differ, which is why the precondition asks, beside finiteness, that every time vector have a positive
  squared length (outside that domain the reference's own quotient is 0 / 0). Everything after the scores — the row
  maximum, the exponentials, their sum, the quotient, the second contraction — is the same function of the scores on both
  sides; a change of float format on the way into the kernel's second product is the identity on extended reals.

  The modules: `CosineSoftmax` (the two cosine arrangements, their equality, the softmax), `TimeOk` and `PreDecode`
  (what the precondition gives), `RefRead` (the reference at an index), `KernelPayload` (the kernel body at an index),
  `BlockValue` (one grid point against the reference), `BlockReads` (where blocks sit in the arrays), `Final` (the
  kernel's arrays after the run). Here: the three frames, the idealization (nothing was rewritten), and the equality of
  results.
-/
import proofs.«164457_j31696858644737_2_alg».proof.Defs
import proofs.«164457_j31696858644737_2_alg».proof.Proof.Gen.Kernel
import proofs.«164457_j31696858644737_2_alg».proof.Proof.Gen.Kernel.Frame
import proofs.«164457_j31696858644737_2_alg».proof.Proof.Gen.KernelIdeal
import proofs.«164457_j31696858644737_2_alg».proof.Proof.Gen.KernelIdeal.Frame
import proofs.«164457_j31696858644737_2_alg».proof.Proof.Gen.KernelIdeal.Value
import proofs.«164457_j31696858644737_2_alg».proof.Proof.Gen.ReferenceIdeal
import proofs.«164457_j31696858644737_2_alg».proof.Proof.Gen.ReferenceIdeal.Run
import proofs.«164457_j31696858644737_2_alg».proof.Proof.Gen.ReferenceIdeal.Read
import proofs.«164457_j31696858644737_2_alg».proof.Proof.Gen.Pre_finite_inputs
import proofs.«164457_j31696858644737_2_alg».proof.Proof.Final
import proofs.«164457_j31696858644737_2_alg».proof.Proof.PreDecode
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs and leaves its arguments unchanged: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel is the kernel's own text read at the extended reals: nothing was rewritten. -/
theorem preserves : Cert.preserves_Kernel_KernelIdeal := trivial

/-- From memories agreeing on the arguments, under the precondition, the kernel's attention and output arrays end at
    the reference's attention and output of the arguments (`KerAttn.run`: block by block the kernel computes the
    reference's function, the two cosine arrangements agreeing on real vectors of positive length), and the reference's
    own run ends at the same two functions of the same arguments. -/
theorem algebraic : Cert.algebraic_KernelIdeal_ReferenceIdeal := by
  intro m ρ m' ρ' hpre hagree
  have hok : ∀ c : Dev Cert.KernelIdeal.nD,
      Cert.CosAttn.TimeOk (m ((c : Thread Cert.KernelIdeal.nD Cert.KernelIdeal.τ).loc Cert.KernelIdeal.main_arg0))
      ∧ Cert.CosAttn.TimeOk (m ((c : Thread Cert.KernelIdeal.nD Cert.KernelIdeal.τ).loc Cert.KernelIdeal.main_arg2)) :=
    fun c => Cert.PreDecode.timeOk_of_pre _ _ _ (hpre c)
  refine ⟨fun c => Cert.KerAttn.attnOf m c, fun c => Cert.KerAttn.outOf m c, Cert.KerAttn.run m ρ hok, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · unfold Cert.KerAttn.attnOf
    rw [Cert.ReferenceIdeal.Read.val_main_v21_eq, (hagree c).1, (hagree c).2.2]
  · unfold Cert.KerAttn.outOf
    rw [Cert.ReferenceIdeal.Read.val_main_v22_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
